-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S2048x512 : Shape := ⟨2, ![2048, 512]⟩
abbrev S1x1 : Shape := ⟨2, ![1, 1]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 70
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S2048x512, .f32⟩
  | .hbm, ⟨3, _⟩ => ⟨S2048x512, .f32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S_, .f32⟩
  | .hbm, ⟨31, _⟩ => ⟨S1x1, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S1x1, .f32⟩
  | .hbm, ⟨37, _⟩ => ⟨S1x1, .f32⟩
  | .hbm, ⟨38, _⟩ => ⟨S1x1, .f32⟩
  | .hbm, ⟨39, _⟩ => ⟨S1x1, .f32⟩
  | .hbm, ⟨40, _⟩ => ⟨S1x1, .f32⟩
  | .hbm, ⟨41, _⟩ => ⟨S_, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S1x1, .f32⟩
  | .hbm, ⟨53, _⟩ => ⟨S_, .f32⟩
  | .hbm, ⟨54, _⟩ => ⟨S1x1, .f32⟩
  | .hbm, ⟨55, _⟩ => ⟨S1x1, .f32⟩
  | .hbm, ⟨56, _⟩ => ⟨S1x1, .f32⟩
  | .hbm, ⟨57, _⟩ => ⟨S_, .f32⟩
  | .hbm, ⟨58, _⟩ => ⟨S1x1, .f32⟩
  | .hbm, ⟨59, _⟩ => ⟨S1x1, .f32⟩
  | .hbm, ⟨60, _⟩ => ⟨S1x1, .f32⟩
  | .hbm, ⟨61, _⟩ => ⟨S_, .f32⟩
  | .hbm, ⟨62, _⟩ => ⟨S1x1, .f32⟩
  | .hbm, ⟨63, _⟩ => ⟨S1x1, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S1x1, .f32⟩
  | .hbm, ⟨68, _⟩ => ⟨S1x1, .f32⟩
  | .hbm, ⟨69, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S2048x512, .f32⟩
  | .local _ .vmem, ⟨6, _⟩ => ⟨S2048x512, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev main_v23_4 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_cst_11 : Ref sig .tc := ⟨.hbm, 50, rfl⟩
abbrev main_v30 : Ref sig .tc := ⟨.hbm, 51, rfl⟩
abbrev main_v31 : Ref sig .tc := ⟨.hbm, 52, rfl⟩
abbrev main_cst_12 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_14 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v12 : Index := Scalar.indexCast v8
  let c0_3 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![4, 4], ![false, false]⟩

def k1_mult1 (i : grid1.Coords) : BitVec 32 :=
  let arg0 : BitVec 32 := BitVec.ofNat 32 (i 0).val
  let c512_i32 : BitVec 32 := 512#32
  let v5 : BitVec 32 := Scalar.muli arg0 c512_i32
  v5
def k1_mult2 (i : grid1.Coords) : BitVec 32 :=
  let arg1 : BitVec 32 := BitVec.ofNat 32 (i 1).val
  let c512_i32_2 : BitVec 32 := 512#32
  let v7 : BitVec 32 := Scalar.muli arg1 c512_i32_2
  v7
def k1_off1 (i : grid1.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k1_off2 (i : grid1.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v12 : Index := Scalar.indexCast v8
  let c0_3 : Index := 0#32
  ![v12.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

class Facts₀ : Prop where
  slices_S4096x512_S2048x512_0_0 : S4096x512.Slices ![0, 0] S2048x512
  slices_S4096x512_S2048x512_2048_0 : S4096x512.Slices ![2048, 0] S2048x512
  inb_S1x1_S1x1_0_0 : ∀ a, (![0, 0] : Fin 2 → Nat) a + S1x1.size a ≤ S1x1.size a
  h_S1x1 : 0 < S1x1.numel
  h_S512x512 : 0 < S512x512.numel
  shapeCasts_S512x512_S512x512 : S512x512.ShapeCasts S512x512
  reduces_S512x512_S512 : S512x512.Reduces [1] S512
  shapeCasts_S512_S512x1 : S512.ShapeCasts S512x1
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  shapeCasts_S1x1_S1x1 : S1x1.ShapeCasts S1x1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  bcast_S_S1x1 : S_.BroadcastsInDim S1x1 (![] : Fin 0 → Fin S1x1.rank)
  broadcasts_S1x1_S512x512 : S1x1.Broadcasts S512x512
  shapeCasts_S1x1_S_ : S1x1.ShapeCasts S_
  dot_S512x512_S512x512_S512x512_1_0_0_1_n_n_wf : DotDims.WF S512x512 S512x512 S512x512 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x512.size a ≤ S2048x512.size a
  k0_off2_inb : ∀ i : grid0.Coords, ∀ a, (k0_off2 i) a + S512x512.size a ≤ S2048x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  k1_mult1_dvd : ∀ i : grid1.Coords, 512 ∣ (k1_mult1 i).toNat
  k1_mult2_dvd : ∀ i : grid1.Coords, 512 ∣ (k1_mult2 i).toNat
  k1_off1_inb : ∀ i : grid1.Coords, ∀ a, (k1_off1 i) a + S512x512.size a ≤ S2048x512.size a
  k1_off2_inb : ∀ i : grid1.Coords, ∀ a, (k1_off2 i) a + S512x512.size a ≤ S2048x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S2048x512.size a
  hwx1_0 : ∀ i : grid1.Coords, EltTy.bits .f32 = 32 ∨ (Rect.block (s := S2048x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S2048x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S1x1.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23_2) S1x1.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23_3) S1x1.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23_4) S1x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096 : Shape := ⟨1, ![4096]⟩
abbrev S2048x512 : Shape := ⟨2, ![2048, 512]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 194
  | .vmem => 0
  | .smem => 0
  | _ => 0

abbrev hbmTy0_0 (i : Nat) : BufTy := match i % 128 with
  | 0 => ⟨S4096x512, .f32⟩
  | 1 => ⟨S4096, .i32⟩
  | 2 => ⟨S2048x512, .f32⟩
  | 3 => ⟨S2048x512, .f32⟩
  | 4 => ⟨S4096x512, .f32⟩
  | 5 => ⟨S4096x512, .f32⟩
  | 6 => ⟨S_, .f32⟩
  | 7 => ⟨S4096, .f32⟩
  | 8 => ⟨S4096x1, .f32⟩
  | 9 => ⟨S1x4096, .f32⟩
  | 10 => ⟨S4096x4096, .f32⟩
  | 11 => ⟨S4096x4096, .f32⟩
  | 12 => ⟨S4096x4096, .f32⟩
  | 13 => ⟨S512x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S4096x4096, .f32⟩
  | 27 => ⟨S4096x4096, .f32⟩
  | 28 => ⟨S_, .f32⟩
  | 29 => ⟨S_, .f32⟩
  | 30 => ⟨S4096x4096, .f32⟩
  | 31 => ⟨S4096x4096, .f32⟩
  | 32 => ⟨S4096x4096, .f32⟩
  | 33 => ⟨S4096x4096, .f32⟩
  | 34 => ⟨S4096x4096, .f32⟩
  | 35 => ⟨S_, .f32⟩
  | 36 => ⟨S_, .f32⟩
  | 37 => ⟨S4096x4096, .f32⟩
  | 38 => ⟨S4096x4096, .f32⟩
  | 39 => ⟨S4096x4096, .f32⟩
  | 40 => ⟨S4096x4096, .f32⟩
  | 41 => ⟨S4096x4096, .f32⟩
  | 42 => ⟨S_, .f32⟩
  | 43 => ⟨S_, .f32⟩
  | 44 => ⟨S4096x4096, .f32⟩
  | 45 => ⟨S4096x4096, .f32⟩
  | 46 => ⟨S4096x4096, .f32⟩
  | 47 => ⟨S4096x4096, .f32⟩
  | 48 => ⟨S4096x4096, .f32⟩
  | 49 => ⟨S_, .f32⟩
  | 50 => ⟨S_, .f32⟩
  | 51 => ⟨S4096x4096, .f32⟩
  | 52 => ⟨S4096x4096, .f32⟩
  | 53 => ⟨S4096x4096, .f32⟩
  | 54 => ⟨S4096x4096, .f32⟩
  | 55 => ⟨S4096x4096, .f32⟩
  | 56 => ⟨S_, .f32⟩
  | 57 => ⟨S_, .f32⟩
  | 58 => ⟨S4096x4096, .f32⟩
  | 59 => ⟨S4096x4096, .f32⟩
  | 60 => ⟨S4096x4096, .f32⟩
  | 61 => ⟨S4096x4096, .f32⟩
  | 62 => ⟨S_, .f32⟩
  | 63 => ⟨S_, .f32⟩
  | 64 => ⟨S_, .f32⟩
  | 65 => ⟨S_, .f32⟩
  | 66 => ⟨S4096x512, .f32⟩
  | 67 => ⟨S4096x512, .f32⟩
  | 68 => ⟨S_, .f32⟩
  | 69 => ⟨S4096, .f32⟩
  | 70 => ⟨S4096x1, .f32⟩
  | 71 => ⟨S1x4096, .f32⟩
  | 72 => ⟨S4096x4096, .f32⟩
  | 73 => ⟨S4096x4096, .f32⟩
  | 74 => ⟨S4096x4096, .f32⟩
  | 75 => ⟨S512x4096, .f32⟩
  | 76 => ⟨S4096x4096, .f32⟩
  | 77 => ⟨S_, .f32⟩
  | 78 => ⟨S4096x4096, .f32⟩
  | 79 => ⟨S4096x4096, .f32⟩
  | 80 => ⟨S4096x4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096x4096, .f32⟩
  | 89 => ⟨S4096x4096, .f32⟩
  | 90 => ⟨S_, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S4096x4096, .f32⟩
  | 97 => ⟨S_, .f32⟩
  | 98 => ⟨S_, .f32⟩
  | 99 => ⟨S4096x4096, .f32⟩
  | 100 => ⟨S4096x4096, .f32⟩
  | 101 => ⟨S4096x4096, .f32⟩
  | 102 => ⟨S4096x4096, .f32⟩
  | 103 => ⟨S4096x4096, .f32⟩
  | 104 => ⟨S_, .f32⟩
  | 105 => ⟨S_, .f32⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S_, .f32⟩
  | 112 => ⟨S_, .f32⟩
  | 113 => ⟨S4096x4096, .f32⟩
  | 114 => ⟨S4096x4096, .f32⟩
  | 115 => ⟨S4096x4096, .f32⟩
  | 116 => ⟨S4096x4096, .f32⟩
  | 117 => ⟨S4096x4096, .f32⟩
  | 118 => ⟨S_, .f32⟩
  | 119 => ⟨S_, .f32⟩
  | 120 => ⟨S4096x4096, .f32⟩
  | 121 => ⟨S4096x4096, .f32⟩
  | 122 => ⟨S4096x4096, .f32⟩
  | 123 => ⟨S4096x4096, .f32⟩
  | 124 => ⟨S_, .f32⟩
  | 125 => ⟨S_, .f32⟩
  | 126 => ⟨S_, .f32⟩
  | 127 => ⟨S_, .f32⟩
  | _ => ⟨S4096x512, .f32⟩

abbrev hbmTy0_1 (i : Nat) : BufTy := match i % 128 with
  | 0 => ⟨S4096x512, .f32⟩
  | 1 => ⟨S4096x512, .f32⟩
  | 2 => ⟨S_, .f32⟩
  | 3 => ⟨S4096, .f32⟩
  | 4 => ⟨S4096x1, .f32⟩
  | 5 => ⟨S1x4096, .f32⟩
  | 6 => ⟨S4096x4096, .f32⟩
  | 7 => ⟨S4096x4096, .f32⟩
  | 8 => ⟨S4096x4096, .f32⟩
  | 9 => ⟨S512x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S4096x4096, .f32⟩
  | 23 => ⟨S4096x4096, .f32⟩
  | 24 => ⟨S_, .f32⟩
  | 25 => ⟨S_, .f32⟩
  | 26 => ⟨S4096x4096, .f32⟩
  | 27 => ⟨S4096x4096, .f32⟩
  | 28 => ⟨S4096x4096, .f32⟩
  | 29 => ⟨S4096x4096, .f32⟩
  | 30 => ⟨S4096x4096, .f32⟩
  | 31 => ⟨S_, .f32⟩
  | 32 => ⟨S_, .f32⟩
  | 33 => ⟨S4096x4096, .f32⟩
  | 34 => ⟨S4096x4096, .f32⟩
  | 35 => ⟨S4096x4096, .f32⟩
  | 36 => ⟨S4096x4096, .f32⟩
  | 37 => ⟨S4096x4096, .f32⟩
  | 38 => ⟨S_, .f32⟩
  | 39 => ⟨S_, .f32⟩
  | 40 => ⟨S4096x4096, .f32⟩
  | 41 => ⟨S4096x4096, .f32⟩
  | 42 => ⟨S4096x4096, .f32⟩
  | 43 => ⟨S4096x4096, .f32⟩
  | 44 => ⟨S4096x4096, .f32⟩
  | 45 => ⟨S_, .f32⟩
  | 46 => ⟨S_, .f32⟩
  | 47 => ⟨S4096x4096, .f32⟩
  | 48 => ⟨S4096x4096, .f32⟩
  | 49 => ⟨S4096x4096, .f32⟩
  | 50 => ⟨S4096x4096, .f32⟩
  | 51 => ⟨S4096x4096, .f32⟩
  | 52 => ⟨S_, .f32⟩
  | 53 => ⟨S_, .f32⟩
  | 54 => ⟨S4096x4096, .f32⟩
  | 55 => ⟨S4096x4096, .f32⟩
  | 56 => ⟨S4096x4096, .f32⟩
  | 57 => ⟨S4096x4096, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_cst_11 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_14 : Ref sig .tc := ⟨.hbm, 81, rfl⟩
abbrev main_v64 : Ref sig .tc := ⟨.hbm, 82, rfl⟩
abbrev main_cst_15 : Ref sig .tc := ⟨.hbm, 83, rfl⟩
abbrev main_v65 : Ref sig .tc := ⟨.hbm, 84, rfl⟩
abbrev main_cst_16 : Ref sig .tc := ⟨.hbm, 85, rfl⟩
abbrev main_v66 : Ref sig .tc := ⟨.hbm, 86, rfl⟩
abbrev main_cst_17 : Ref sig .tc := ⟨.hbm, 87, rfl⟩
abbrev main_v67 : Ref sig .tc := ⟨.hbm, 88, rfl⟩
abbrev main_v68 : Ref sig .tc := ⟨.hbm, 89, rfl⟩
abbrev main_cst_18 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_19 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_20 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_21 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_22 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_23 : Ref sig .tc := ⟨.hbm, 124, rfl⟩
abbrev main_v98 : Ref sig .tc := ⟨.hbm, 125, rfl⟩
abbrev main_cst_24 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_25 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_26 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_27 : Ref sig .tc := ⟨.hbm, 143, rfl⟩
abbrev main_v113 : Ref sig .tc := ⟨.hbm, 144, rfl⟩
abbrev main_cst_28 : Ref sig .tc := ⟨.hbm, 145, rfl⟩
abbrev main_v114 : Ref sig .tc := ⟨.hbm, 146, rfl⟩
abbrev main_cst_29 : Ref sig .tc := ⟨.hbm, 147, rfl⟩
abbrev main_v115 : Ref sig .tc := ⟨.hbm, 148, rfl⟩
abbrev main_cst_30 : Ref sig .tc := ⟨.hbm, 149, rfl⟩
abbrev main_v116 : Ref sig .tc := ⟨.hbm, 150, rfl⟩
abbrev main_v117 : Ref sig .tc := ⟨.hbm, 151, rfl⟩
abbrev main_cst_31 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_32 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_33 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_34 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_35 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_36 : Ref sig .tc := ⟨.hbm, 186, rfl⟩
abbrev main_v147 : Ref sig .tc := ⟨.hbm, 187, rfl⟩
abbrev main_cst_37 : Ref sig .tc := ⟨.hbm, 188, rfl⟩
abbrev main_v148 : Ref sig .tc := ⟨.hbm, 189, rfl⟩
abbrev main_v149 : Ref sig .tc := ⟨.hbm, 190, rfl⟩
abbrev main_cst_38 : Ref sig .tc := ⟨.hbm, 191, rfl⟩
abbrev main_v150 : Ref sig .tc := ⟨.hbm, 192, rfl⟩
abbrev main_v151 : Ref sig .tc := ⟨.hbm, 193, rfl⟩

abbrev nD : Nat := 1
abbrev τ : Topo := Topo.v7x

variable {F : FTy → Type} [FloatOps F]

class Facts₀ : Prop where
  slices_S4096x512_S2048x512_0_0 : S4096x512.Slices ![0, 0] S2048x512
  slices_S4096x512_S2048x512_2048_0 : S4096x512.Slices ![2048, 0] S2048x512
  concatenates_S2048x512_S2048x512_S4096x512_d0 : Shape.Concatenates [S2048x512, S2048x512] S4096x512 0
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Spec.lean ====
/-
  The two programs as plain formulas over the extended reals.

  Both compute the multi-bandwidth Gaussian-kernel maximum-mean-discrepancy of two sets of 2048 points in dimension 512,
  the rows `S` (source) and `T` (target) of the argument.  For two families of rows `a`, `b` the squared distance of row `p`
  of `a` to row `q` of `b` is taken by the product trick, `dist a b p q = (|a p|² + |b q|²) - 2 · ⟨a p, b q⟩`, and the
  kernel value of a distance `d` at bandwidth `w` is `ksum d w = Σ_{s ∈ {1,2,4,8,16}} exp (-d / (w · s))`.

  * The reference stacks two families into 4096 rows (`total`), sums `dist` over all 4096 × 4096 pairs for the bandwidth
    (`refBw`), and averages `ksum` over the same pairs (`refMean`); it does so for (S,S), (T,T), (S,T) and returns
    `xx + yy - 2 · xy` (`refResult`).
  * The kernel only ever forms the three 2048 × 2048 tables S–S, T–T, S–T, each as 16 tiles of 512 × 512 pairs
    (`kerSum`, `kerK`: tile `t` pairs row block `t / 4` with row block `t % 4`), gets the three bandwidths from the
    table sums (`bwXX`, `bwYY`, `bwXY`) and combines five table averages (`kerResult`).

  Every sum here is a sum of extended reals over finite index types; no finiteness of the entries is assumed.
-/
import Idealize.ShloMosaic.PureOps.Ideal
import Idealize.ShloMosaic.Lib.ValueIdx
import Mathlib.Algebra.BigOperators.Fin

noncomputable section

namespace Cert.Spec

open Idealize.ShloMosaic

/-- `n` rows of 512 extended reals. -/
abbrev Rows (n : Nat) := Fin n → Fin 512 → EReal

/-- The squared length of row `p`. -/
def sq {n : Nat} (a : Rows n) (p : Fin n) : EReal := ∑ k : Fin 512, a p k * a p k

/-- The inner product of row `p` of `a` with row `q` of `b`. -/
def cross {n m : Nat} (a : Rows n) (b : Rows m) (p : Fin n) (q : Fin m) : EReal := ∑ k : Fin 512, a p k * b q k

/-- The squared distance by the product trick. -/
def dist {n m : Nat} (a : Rows n) (b : Rows m) (p : Fin n) (q : Fin m) : EReal :=
  (sq a p + sq b q) - ((2 : ℝ) : EReal) * cross a b p q

/-- The five-bandwidth Gaussian kernel of a squared distance `d` at base bandwidth `w`. -/
def ksum (d w : EReal) : EReal :=
  Ideal.exp (Ideal.div (-d) (w * ((1 : ℝ) : EReal))) + Ideal.exp (Ideal.div (-d) (w * ((2 : ℝ) : EReal)))
    + Ideal.exp (Ideal.div (-d) (w * ((4 : ℝ) : EReal))) + Ideal.exp (Ideal.div (-d) (w * ((8 : ℝ) : EReal)))
    + Ideal.exp (Ideal.div (-d) (w * ((16 : ℝ) : EReal)))

/-! ## The argument's two halves -/

/-- The source points: rows `0 … 2047` of the argument array. -/
def srcRows (X : (⟨2, ![4096, 512]⟩ : Shape).Idx → EReal) : Rows 2048 :=
  fun p k => X (ValueIdx.ix2 (⟨p.val, by have := p.isLt; omega⟩ : Fin 4096) k)

/-- The target points: rows `2048 … 4095` of the argument array. -/
def tgtRows (X : (⟨2, ![4096, 512]⟩ : Shape).Idx → EReal) : Rows 2048 :=
  fun p k => X (ValueIdx.ix2 (⟨2048 + p.val, by have := p.isLt; omega⟩ : Fin 4096) k)

/-! ## The reference -/

/-- `a` stacked on `b`. -/
def total (a b : Rows 2048) : Rows 4096 :=
  fun i k => if h : i.val < 2048 then a ⟨i.val, h⟩ k else b ⟨i.val - 2048, by have := i.isLt; omega⟩ k

def refSum (X : Rows 4096) : EReal := ∑ i : Fin 4096, ∑ j : Fin 4096, dist X X i j

def refBw (X : Rows 4096) : EReal :=
  Ideal.div (Ideal.div (refSum X) ((16773120 : ℝ) : EReal)) ((4 : ℝ) : EReal)

def refMean (X : Rows 4096) : EReal :=
  Ideal.div (∑ i : Fin 4096, ∑ j : Fin 4096, ksum (dist X X i j) (refBw X)) ((16777216 : ℝ) : EReal)

def refResult (S T : Rows 2048) : EReal :=
  (refMean (total S S) + refMean (total T T)) - ((2 : ℝ) : EReal) * refMean (total S T)

/-! ## The kernel -/

/-- Row block `I` of 2048 rows: rows `512 I … 512 I + 511`. -/
def blk (a : Rows 2048) (I : Fin 4) : Rows 512 :=
  fun p k => a ⟨512 * I.val + p.val, by have := I.isLt; have := p.isLt; omega⟩ k

/-- Tile `t` of the 4 × 4 grid pairs row block `t / 4` … -/
def tileI (t : Fin 16) : Fin 4 := ⟨t.val / 4, by have := t.isLt; omega⟩
/-- … with row block `t % 4`. -/
def tileJ (t : Fin 16) : Fin 4 := ⟨t.val % 4, by omega⟩

/-- The sum of one tile's 512 × 512 squared distances. -/
def tileSum (a b : Rows 2048) (t : Fin 16) : EReal :=
  ∑ p : Fin 512, ∑ q : Fin 512, dist (blk a (tileI t)) (blk b (tileJ t)) p q

/-- The sum of one tile's 512 × 512 kernel values at bandwidth `w`. -/
def tileK (a b : Rows 2048) (w : EReal) (t : Fin 16) : EReal :=
  ∑ p : Fin 512, ∑ q : Fin 512, ksum (dist (blk a (tileI t)) (blk b (tileJ t)) p q) w

def kerSum (a b : Rows 2048) : EReal := ∑ t : Fin 16, tileSum a b t

def kerK (a b : Rows 2048) (w : EReal) : EReal := ∑ t : Fin 16, tileK a b w t

def bwOf (s : EReal) : EReal := Ideal.div (Ideal.div s ((16773120 : ℝ) : EReal)) ((4 : ℝ) : EReal)

def bwXX (S : Rows 2048) : EReal := bwOf (((4 : ℝ) : EReal) * kerSum S S)
def bwYY (T : Rows 2048) : EReal := bwOf (((4 : ℝ) : EReal) * kerSum T T)
def bwXY (S T : Rows 2048) : EReal := bwOf ((kerSum S S + ((2 : ℝ) : EReal) * kerSum S T) + kerSum T T)

/-- A table average: a table's kernel sum over its 2048 × 2048 pairs. -/
def avg (x : EReal) : EReal := Ideal.div x ((4194304 : ℝ) : EReal)

def kerResult (S T : Rows 2048) : EReal :=
  (avg (kerK S S (bwXX S)) + avg (kerK T T (bwYY T)))
    - ((2 : ℝ) : EReal) * (((1 / 4 : ℝ) : EReal) *
        ((avg (kerK S S (bwXY S T)) + avg (((2 : ℝ) : EReal) * kerK S T (bwXY S T))) + avg (kerK T T (bwXY S T))))

end Cert.Spec

end
-- ==== Proof.SpecIndex.lean ====
/-
  Re-indexing finite sums in a commutative additive monoid:

  * a sum over 4096 indices is the sum over the first 2048 plus the sum over the last 2048 (`sum_halves`);
  * a sum over 2048 indices is the sum over 4 blocks of 512 consecutive indices (`sum_blocks`);
  * a sum over the 16 tiles `t ↦ (t / 4, t % 4)` is the double sum over the 4 × 4 grid (`sum_tiles`);
  * hence a double sum over 4096 × 4096 pairs is the sum of its four 2048 × 2048 quadrants (`sum_quadrants`), and a
    double sum over 2048 × 2048 pairs is the sum over the 16 tiles of the 512 × 512 double sums (`sum_table`).

  None of this uses anything but associativity and commutativity of the addition.
-/
import proofs.«165374_j9122510537222_1_alg».proof.Proof.Spec

namespace Cert.Spec

variable {M : Type*} [AddCommMonoid M]

/-- Index `p` of the first half of 4096. -/
def lo (p : Fin 2048) : Fin 4096 := ⟨p.val, by have := p.isLt; omega⟩
/-- Index `p` of the second half of 4096. -/
def hi (p : Fin 2048) : Fin 4096 := ⟨2048 + p.val, by have := p.isLt; omega⟩
/-- Index `p` of block `I` of 2048 = 4 · 512. -/
def bi (I : Fin 4) (p : Fin 512) : Fin 2048 := ⟨512 * I.val + p.val, by have := I.isLt; have := p.isLt; omega⟩

theorem sum_halves (F : Fin 4096 → M) :
    ∑ i : Fin 4096, F i = ∑ p : Fin 2048, F (lo p) + ∑ p : Fin 2048, F (hi p) := by
  have h := Fin.sum_univ_add (M := M) (a := 2048) (b := 2048) F
  refine h.trans ?_
  congr 1

theorem sum_blocks (F : Fin 2048 → M) :
    ∑ P : Fin 2048, F P = ∑ I : Fin 4, ∑ p : Fin 512, F (bi I p) := by
  have h := (finProdFinEquiv (m := 4) (n := 512)).sum_comp (M := M) F
  rw [← h, Fintype.sum_prod_type]
  refine Finset.sum_congr rfl fun I _ => Finset.sum_congr rfl fun p _ => ?_
  congr 1
  apply Fin.ext
  show p.val + 512 * I.val = 512 * I.val + p.val
  omega

theorem sum_tiles (G : Fin 4 → Fin 4 → M) :
    ∑ t : Fin 16, G (tileI t) (tileJ t) = ∑ I : Fin 4, ∑ J : Fin 4, G I J := by
  have h := (finProdFinEquiv (m := 4) (n := 4)).sum_comp (M := M) (fun t => G (tileI t) (tileJ t))
  rw [← h, Fintype.sum_prod_type]
  refine Finset.sum_congr rfl fun I _ => Finset.sum_congr rfl fun J _ => ?_
  have hI : tileI (finProdFinEquiv (I, J)) = I := by
    apply Fin.ext
    have := I.isLt; have := J.isLt
    show (J.val + 4 * I.val) / 4 = I.val
    omega
  have hJ : tileJ (finProdFinEquiv (I, J)) = J := by
    apply Fin.ext
    have := I.isLt; have := J.isLt
    show (J.val + 4 * I.val) % 4 = J.val
    omega
  rw [hI, hJ]

/-- A double sum over 4096 × 4096 pairs is the sum of its four quadrants. -/
theorem sum_quadrants (F : Fin 4096 → Fin 4096 → M) :
    ∑ i : Fin 4096, ∑ j : Fin 4096, F i j
      = (∑ p : Fin 2048, ∑ q : Fin 2048, F (lo p) (lo q) + ∑ p : Fin 2048, ∑ q : Fin 2048, F (lo p) (hi q))
        + (∑ p : Fin 2048, ∑ q : Fin 2048, F (hi p) (lo q) + ∑ p : Fin 2048, ∑ q : Fin 2048, F (hi p) (hi q)) := by
  rw [sum_halves]
  simp only [sum_halves (fun j => F _ j), Finset.sum_add_distrib]

/-- A double sum over 2048 × 2048 pairs is the sum over the 16 tiles of the 512 × 512 double sums. -/
theorem sum_table (H : Fin 2048 → Fin 2048 → M) :
    ∑ P : Fin 2048, ∑ Q : Fin 2048, H P Q
      = ∑ t : Fin 16, ∑ p : Fin 512, ∑ q : Fin 512, H (bi (tileI t) p) (bi (tileJ t) q) := by
  rw [sum_tiles (fun I J => ∑ p : Fin 512, ∑ q : Fin 512, H (bi I p) (bi J q)), sum_blocks]
  refine Finset.sum_congr rfl fun I _ => ?_
  simp only [sum_blocks (fun Q => H _ Q)]
  rw [Finset.sum_comm]

end Cert.Spec
-- ==== Proof.SpecDist.lean ====
/-
  The squared distance depends only on the two rows it compares, and is symmetric in them.  Consequently, for ANY function
  `g` of a squared distance, the sum of `g ∘ dist` over all 4096 × 4096 pairs of the stacked family `total a b` is the sum of
  four 2048 × 2048 tables, a–a, a–b, b–a (which equals a–b by symmetry) and b–b, and each table is the sum over the 16 tiles
  of the 512 × 512 block sums (`sum_total`).
-/
import proofs.«165374_j9122510537222_1_alg».proof.Proof.SpecIndex

noncomputable section

namespace Cert.Spec

/-- The squared distance of two rows by the product trick. -/
def rdist (u v : Fin 512 → EReal) : EReal :=
  (∑ k : Fin 512, u k * u k + ∑ k : Fin 512, v k * v k) - ((2 : ℝ) : EReal) * ∑ k : Fin 512, u k * v k

theorem dist_eq_rdist {n m : Nat} (a : Rows n) (b : Rows m) (p : Fin n) (q : Fin m) :
    dist a b p q = rdist (a p) (b q) := rfl

theorem rdist_comm (u v : Fin 512 → EReal) : rdist u v = rdist v u := by
  unfold rdist
  rw [add_comm]
  congr 2
  exact Finset.sum_congr rfl fun k _ => mul_comm _ _

theorem total_lo (a b : Rows 2048) (p : Fin 2048) : total a b (lo p) = a p := by
  funext k
  have h : (lo p).val < 2048 := p.isLt
  simp only [total, dif_pos h]
  rfl

theorem total_hi (a b : Rows 2048) (p : Fin 2048) : total a b (hi p) = b p := by
  funext k
  have h : ¬ (hi p).val < 2048 := by simp [hi]
  simp only [total, dif_neg h]
  congr 1
  apply Fin.ext
  simp [hi]

theorem blk_row (a : Rows 2048) (I : Fin 4) (p : Fin 512) : blk a I p = a (bi I p) := rfl

/-- The table of `g ∘ dist` between `a` and `b`, as the kernel forms it: 16 tiles of 512 × 512 pairs. -/
def tab (g : EReal → EReal) (a b : Rows 2048) : EReal :=
  ∑ t : Fin 16, ∑ p : Fin 512, ∑ q : Fin 512, g (dist (blk a (tileI t)) (blk b (tileJ t)) p q)

theorem kerSum_eq_tab (a b : Rows 2048) : kerSum a b = tab (fun d => d) a b := rfl

theorem kerK_eq_tab (a b : Rows 2048) (w : EReal) : kerK a b w = tab (fun d => ksum d w) a b := rfl

/-- The full 2048 × 2048 double sum is the sum over the tiles. -/
theorem sum_pairs_eq_tab (g : EReal → EReal) (a b : Rows 2048) :
    ∑ P : Fin 2048, ∑ Q : Fin 2048, g (rdist (a P) (b Q)) = tab g a b := by
  rw [sum_table (fun P Q => g (rdist (a P) (b Q)))]
  rfl

/-- The table b–a has the same sum as the table a–b: the distance is symmetric, and the order of summation is free. -/
theorem tab_comm (g : EReal → EReal) (a b : Rows 2048) : tab g a b = tab g b a := by
  rw [← sum_pairs_eq_tab, ← sum_pairs_eq_tab, Finset.sum_comm]
  exact Finset.sum_congr rfl fun q _ => Finset.sum_congr rfl fun p _ => by rw [rdist_comm]

/-- The sum over all pairs of the stacked family is the sum of the four tables. -/
theorem sum_total (g : EReal → EReal) (a b : Rows 2048) :
    ∑ i : Fin 4096, ∑ j : Fin 4096, g (dist (total a b) (total a b) i j)
      = (tab g a a + tab g a b) + (tab g a b + tab g b b) := by
  rw [sum_quadrants (fun i j => g (dist (total a b) (total a b) i j))]
  simp only [dist_eq_rdist, total_lo, total_hi]
  rw [sum_pairs_eq_tab, sum_pairs_eq_tab, sum_pairs_eq_tab, sum_pairs_eq_tab, tab_comm g b a]

end Cert.Spec

end
-- ==== Proof.SpecScalar.lean ====
/-
  Scalar laws of the extended reals that hold with no finiteness or sign assumption on the variable terms:

  * a nonnegative real factor distributes over every sum (`add_mul_coe`), so division by a positive real does too;
  * `x + x = 2 · x` and `(x + x) + (x + x) = 4 · x` for every `x`;
  * the average over 4096² pairs of four equal quadrant sums is the average over 2048² pairs of one of them
    (`mean_same`), and the average over 4096² pairs of the quadrant sums `A, B, B, C` is a quarter of
    `A/2048² + (2B)/2048² + C/2048²` (`mean_mixed`).
-/
import proofs.«165374_j9122510537222_1_alg».proof.Proof.Spec
import Mathlib.Data.EReal.Operations

namespace Cert.Spec

open Idealize.ShloMosaic

/-- A nonnegative real factor distributes over every sum of extended reals. -/
theorem add_mul_coe {c : ℝ} (hc : 0 ≤ c) (x y : EReal) :
    (x + y) * (c : EReal) = x * (c : EReal) + y * (c : EReal) :=
  EReal.right_distrib_of_nonneg_of_ne_top (by exact_mod_cast hc) (EReal.coe_ne_top c) x y

theorem add_self (x : EReal) : x + x = ((2 : ℝ) : EReal) * x := by
  have h : ((2 : ℝ) : EReal) = ((1 : ℝ) : EReal) + ((1 : ℝ) : EReal) := by
    rw [← EReal.coe_add]; norm_num
  have h1 : (0 : EReal) ≤ ((1 : ℝ) : EReal) := by exact_mod_cast zero_le_one
  rw [h, EReal.right_distrib_of_nonneg h1 h1, EReal.coe_one, one_mul]

theorem add_self_four (x : EReal) : (x + x) + (x + x) = ((4 : ℝ) : EReal) * x := by
  rw [add_self x, add_self (((2 : ℝ) : EReal) * x), ← mul_assoc, ← EReal.coe_mul]
  norm_num

/-- `(a + b) + (b + c) = (a + 2 · b) + c`. -/
theorem add_mid (a b c : EReal) : (a + b) + (b + c) = (a + ((2 : ℝ) : EReal) * b) + c := by
  rw [← add_self b]; ac_rfl

/-- Division by a positive real distributes over every sum. -/
theorem div_add {c : ℝ} (hc : 0 < c) (x y : EReal) :
    Ideal.div (x + y) (c : EReal) = Ideal.div x (c : EReal) + Ideal.div y (c : EReal) := by
  rw [Ideal.div_coe hc.ne', Ideal.div_coe hc.ne', Ideal.div_coe hc.ne']
  exact add_mul_coe (by positivity) x y

theorem mean_same (A : EReal) :
    Ideal.div ((A + A) + (A + A)) ((16777216 : ℝ) : EReal) = avg A := by
  rw [add_self_four, avg, Ideal.div_coe (by norm_num), Ideal.div_coe (by norm_num), mul_comm _ A, mul_assoc,
    ← EReal.coe_mul]
  norm_num

theorem mean_mixed (A B C : EReal) :
    Ideal.div ((A + B) + (B + C)) ((16777216 : ℝ) : EReal)
      = ((1 / 4 : ℝ) : EReal) * ((avg A + avg (((2 : ℝ) : EReal) * B)) + avg C) := by
  have h4 : (0 : ℝ) < 4194304 := by norm_num
  rw [avg, avg, avg, ← div_add h4, ← div_add h4, add_mid, Ideal.div_coe (by norm_num), Ideal.div_coe (by norm_num),
    mul_left_comm, ← EReal.coe_mul]
  norm_num

end Cert.Spec
-- ==== Proof.SpecLaw.lean ====
/-
  The reference's formula equals the kernel's formula, for all families of extended reals.

  Stacking `a` on `b` and summing any function of the squared distance over all 4096 × 4096 pairs gives the four tables
  a–a, a–b, a–b, b–b (`sum_total`).  With the identity function this identifies the three bandwidths; with the kernel
  value at that bandwidth it identifies the three means, through the scalar laws `mean_same` and `mean_mixed`.
-/
import proofs.«165374_j9122510537222_1_alg».proof.Proof.SpecDist
import proofs.«165374_j9122510537222_1_alg».proof.Proof.SpecScalar

namespace Cert.Spec

open Idealize.ShloMosaic

/-- The sum of all squared distances of the stacked family is the sum of the four table sums. -/
theorem refSum_total (a b : Rows 2048) :
    refSum (total a b) = (kerSum a a + kerSum a b) + (kerSum a b + kerSum b b) := by
  simp only [kerSum_eq_tab]
  exact sum_total (fun d => d) a b

theorem refBw_same (S : Rows 2048) : refBw (total S S) = bwXX S := by
  unfold refBw bwXX bwOf
  rw [refSum_total, add_self_four]

theorem refBw_mixed (S T : Rows 2048) : refBw (total S T) = bwXY S T := by
  unfold refBw bwXY bwOf
  rw [refSum_total, add_mid]

theorem bwYY_eq (T : Rows 2048) : bwYY T = bwXX T := rfl

/-- The mean of the kernel values over the stacked family, by the four tables at the family's own bandwidth. -/
theorem refMean_total (a b : Rows 2048) :
    refMean (total a b)
      = Ideal.div ((kerK a a (refBw (total a b)) + kerK a b (refBw (total a b)))
          + (kerK a b (refBw (total a b)) + kerK b b (refBw (total a b)))) ((16777216 : ℝ) : EReal) := by
  unfold refMean
  simp only [kerK_eq_tab]
  exact congrArg (fun s => Ideal.div s ((16777216 : ℝ) : EReal))
    (sum_total (fun d => ksum d (refBw (total a b))) a b)

theorem refMean_same (S : Rows 2048) : refMean (total S S) = avg (kerK S S (bwXX S)) := by
  rw [refMean_total, refBw_same, mean_same]

theorem refMean_mixed (S T : Rows 2048) :
    refMean (total S T)
      = ((1 / 4 : ℝ) : EReal) *
          ((avg (kerK S S (bwXY S T)) + avg (((2 : ℝ) : EReal) * kerK S T (bwXY S T))) + avg (kerK T T (bwXY S T))) := by
  rw [refMean_total, refBw_mixed, mean_mixed]

theorem refResult_eq_kerResult (S T : Rows 2048) : refResult S T = kerResult S T := by
  unfold refResult kerResult
  rw [refMean_same, refMean_same, refMean_mixed, bwYY_eq]

end Cert.Spec
-- ==== Proof.RefBlock.lean ====
/-
  The reference's 49-operation block, written once as a function of the stacked array `X` (4096 rows of 512),
  for any float instance: the squared row lengths, the table of squared distances by the product trick, the
  bandwidth from the table's sum, the five-bandwidth kernel table and its mean.  The reference runs the block on
  three stackings and combines the three means; the composed term of its run is that combination.
-/
import proofs.«165374_j9122510537222_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The squared length of every row: the sum over axis 1 of the elementwise square. -/
def sqv (X : FVec F S4096x512 .f32) : FVec F S4096 .f32 :=
  Host.reduceAdd (mulf X X) (constant S_ .f32 0x00000000#32) reducesTo_S4096x512_S4096_d1 h_S_

/-- The table of squared distances by the product trick: (sq as a column + sq as a row) - 2 · (X · Xᵀ). -/
def pairD2 (X : FVec F S4096x512 .f32) : FVec F S4096x4096 .f32 :=
  subf (addf (broadcastInDim S4096x4096 ![0, 1] bcast_S4096x1_S4096x4096_0_1 (broadcastInDim S4096x1 ![0] bcast_S4096_S4096x1_0 (sqv X))) (broadcastInDim S4096x4096 ![0, 1] bcast_S1x4096_S4096x4096_0_1 (broadcastInDim S1x4096 ![1] bcast_S4096_S1x4096_1 (sqv X)))) (mulf (broadcastInDim S4096x4096 ![] bcast_S_S4096x4096 (constant S_ .f32 0x40000000#32)) (Host.dotGeneral dot_S4096x512_S512x4096_S4096x4096_1_0_0_1_n_n none X (transpose S512x4096 [1, 0] X transposes_S4096x512_S512x4096_1_0)))

/-- The bandwidth of a table: its sum over all pairs, divided by the pair count and by four. -/
def bwOf (D : FVec F S4096x4096 .f32) : FVec F S_ .f32 :=
  Host.divf (Host.divf (Host.reduceAdd D (constant S_ .f32 0x00000000#32) reducesTo_S4096x4096_S_d0_1 h_S_) (constant S_ .f32 0x4B7FF000#32)) (constant S_ .f32 0x40800000#32)

/-- One kernel term: exp (-D / (W · c)), the scalar W · c broadcast over the table. -/
def expTerm (D : FVec F S4096x4096 .f32) (W : FVec F S_ .f32) (c : BitVec 32) : FVec F S4096x4096 .f32 :=
  Host.exp (Host.divf (Host.negf D) (broadcastInDim S4096x4096 ![] bcast_S_S4096x4096 (mulf W (constant S_ .f32 c))))

/-- The five-bandwidth kernel table, accumulated from the zero table. -/
def kTable (D : FVec F S4096x4096 .f32) (W : FVec F S_ .f32) : FVec F S4096x4096 .f32 :=
  addf (addf (addf (addf (addf (broadcastInDim S4096x4096 ![] bcast_S_S4096x4096 (constant S_ .f32 0x00000000#32)) (expTerm D W 0x3F800000#32)) (expTerm D W 0x40000000#32)) (expTerm D W 0x40800000#32)) (expTerm D W 0x41000000#32)) (expTerm D W 0x41800000#32)

/-- The mean of a table over its 4096² entries. -/
def meanOf (K : FVec F S4096x4096 .f32) : FVec F S_ .f32 :=
  Host.divf (Host.reduceAdd K (constant S_ .f32 0x00000000#32) reducesTo_S4096x4096_S_d0_1 h_S_) (constant S_ .f32 0x4B800000#32)

/-- The whole block: the mean kernel value of the stacked array's pairs at its own bandwidth. -/
def pairMean (X : FVec F S4096x512 .f32) : FVec F S_ .f32 :=
  meanOf (kTable (pairD2 X) (bwOf (pairD2 X)))

/-- The three means combined: xx + yy - 2 · xy. -/
def combine (a b c : FVec F S_ .f32) : FVec F S_ .f32 :=
  subf (addf a b) (mulf (constant S_ .f32 0x40000000#32) c)

theorem res_main_v4_eq (V0 : Valuation τ sig (Elt F)) : res_main_v4 V0 = sqv (res_main_v2 V0) := rfl
theorem res_main_v53_eq (V0 : Valuation τ sig (Elt F)) : res_main_v53 V0 = sqv (res_main_v51 V0) := rfl
theorem res_main_v102_eq (V0 : Valuation τ sig (Elt F)) : res_main_v102 V0 = sqv (res_main_v100 V0) := rfl
theorem res_main_v14_eq (V0 : Valuation τ sig (Elt F)) : res_main_v14 V0 = pairD2 (res_main_v2 V0) := rfl
theorem res_main_v63_eq (V0 : Valuation τ sig (Elt F)) : res_main_v63 V0 = pairD2 (res_main_v51 V0) := rfl
theorem res_main_v112_eq (V0 : Valuation τ sig (Elt F)) : res_main_v112 V0 = pairD2 (res_main_v100 V0) := rfl
theorem res_main_v17_eq (V0 : Valuation τ sig (Elt F)) : res_main_v17 V0 = bwOf (pairD2 (res_main_v2 V0)) := rfl
theorem res_main_v66_eq (V0 : Valuation τ sig (Elt F)) : res_main_v66 V0 = bwOf (pairD2 (res_main_v51 V0)) := rfl
theorem res_main_v115_eq (V0 : Valuation τ sig (Elt F)) : res_main_v115 V0 = bwOf (pairD2 (res_main_v100 V0)) := rfl

/-- The run's composed term is the combination of the three block means. -/
theorem composed_eq (V0 : Valuation τ sig (Elt F)) :
    (subf (addf (Host.divf (Host.reduceAdd (addf (addf (addf (addf (addf (broadcastInDim S4096x4096 ![] bcast_S_S4096x4096 (constant S_ .f32 0x00000000#32)) (Host.exp (Host.divf (Host.negf (res_main_v14 V0)) (broadcastInDim S4096x4096 ![] bcast_S_S4096x4096 (mulf (res_main_v17 V0) (constant S_ .f32 0x3F800000#32)))))) (Host.exp (Host.divf (Host.negf (res_main_v14 V0)) (broadcastInDim S4096x4096 ![] bcast_S_S4096x4096 (mulf (res_main_v17 V0) (constant S_ .f32 0x40000000#32)))))) (Host.exp (Host.divf (Host.negf (res_main_v14 V0)) (broadcastInDim S4096x4096 ![] bcast_S_S4096x4096 (mulf (res_main_v17 V0) (constant S_ .f32 0x40800000#32)))))) (Host.exp (Host.divf (Host.negf (res_main_v14 V0)) (broadcastInDim S4096x4096 ![] bcast_S_S4096x4096 (mulf (res_main_v17 V0) (constant S_ .f32 0x41000000#32)))))) (Host.exp (Host.divf (Host.negf (res_main_v14 V0)) (broadcastInDim S4096x4096 ![] bcast_S_S4096x4096 (mulf (res_main_v17 V0) (constant S_ .f32 0x41800000#32)))))) (constant S_ .f32 0x00000000#32) reducesTo_S4096x4096_S_d0_1 h_S_) (constant S_ .f32 0x4B800000#32)) (Host.divf (Host.reduceAdd (addf (addf (addf (addf (addf (broadcastInDim S4096x4096 ![] bcast_S_S4096x4096 (constant S_ .f32 0x00000000#32)) (Host.exp (Host.divf (Host.negf (res_main_v63 V0)) (broadcastInDim S4096x4096 ![] bcast_S_S4096x4096 (mulf (res_main_v66 V0) (constant S_ .f32 0x3F800000#32)))))) (Host.exp (Host.divf (Host.negf (res_main_v63 V0)) (broadcastInDim S4096x4096 ![] bcast_S_S4096x4096 (mulf (res_main_v66 V0) (constant S_ .f32 0x40000000#32)))))) (Host.exp (Host.divf (Host.negf (res_main_v63 V0)) (broadcastInDim S4096x4096 ![] bcast_S_S4096x4096 (mulf (res_main_v66 V0) (constant S_ .f32 0x40800000#32)))))) (Host.exp (Host.divf (Host.negf (res_main_v63 V0)) (broadcastInDim S4096x4096 ![] bcast_S_S4096x4096 (mulf (res_main_v66 V0) (constant S_ .f32 0x41000000#32)))))) (Host.exp (Host.divf (Host.negf (res_main_v63 V0)) (broadcastInDim S4096x4096 ![] bcast_S_S4096x4096 (mulf (res_main_v66 V0) (constant S_ .f32 0x41800000#32)))))) (constant S_ .f32 0x00000000#32) reducesTo_S4096x4096_S_d0_1 h_S_) (constant S_ .f32 0x4B800000#32))) (mulf (constant S_ .f32 0x40000000#32) (Host.divf (Host.reduceAdd (addf (addf (addf (addf (addf (broadcastInDim S4096x4096 ![] bcast_S_S4096x4096 (constant S_ .f32 0x00000000#32)) (Host.exp (Host.divf (Host.negf (res_main_v112 V0)) (broadcastInDim S4096x4096 ![] bcast_S_S4096x4096 (mulf (res_main_v115 V0) (constant S_ .f32 0x3F800000#32)))))) (Host.exp (Host.divf (Host.negf (res_main_v112 V0)) (broadcastInDim S4096x4096 ![] bcast_S_S4096x4096 (mulf (res_main_v115 V0) (constant S_ .f32 0x40000000#32)))))) (Host.exp (Host.divf (Host.negf (res_main_v112 V0)) (broadcastInDim S4096x4096 ![] bcast_S_S4096x4096 (mulf (res_main_v115 V0) (constant S_ .f32 0x40800000#32)))))) (Host.exp (Host.divf (Host.negf (res_main_v112 V0)) (broadcastInDim S4096x4096 ![] bcast_S_S4096x4096 (mulf (res_main_v115 V0) (constant S_ .f32 0x41000000#32)))))) (Host.exp (Host.divf (Host.negf (res_main_v112 V0)) (broadcastInDim S4096x4096 ![] bcast_S_S4096x4096 (mulf (res_main_v115 V0) (constant S_ .f32 0x41800000#32)))))) (constant S_ .f32 0x00000000#32) reducesTo_S4096x4096_S_d0_1 h_S_) (constant S_ .f32 0x4B800000#32))) : FVec F S_ .f32)
      = combine (pairMean (res_main_v2 V0)) (pairMean (res_main_v51 V0)) (pairMean (res_main_v100 V0)) := rfl

end Cert.ReferenceIdeal.RefValue

end
-- ==== Proof.Consts.lean ====
/-
  The float constants the two programs spell, as the extended reals their binary patterns denote.
  All of them are small integers or powers of two, so each pattern denotes its number exactly.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul] <;> norm_num
theorem ofBits_two : Ideal.ofBits .f32 0x40000000#32 = ((2 : ℝ) : EReal) := by
  simp [Ideal.ofBits, Ideal.ieee, -EReal.coe_mul] <;> norm_num
theorem ofBits_four : Ideal.ofBits .f32 0x40800000#32 = ((4 : ℝ) : EReal) := by
  simp [Ideal.ofBits, Ideal.ieee, -EReal.coe_mul] <;> norm_num
theorem ofBits_eight : Ideal.ofBits .f32 0x41000000#32 = ((8 : ℝ) : EReal) := by
  simp [Ideal.ofBits, Ideal.ieee, -EReal.coe_mul] <;> norm_num
theorem ofBits_sixteen : Ideal.ofBits .f32 0x41800000#32 = ((16 : ℝ) : EReal) := by
  simp [Ideal.ofBits, Ideal.ieee, -EReal.coe_mul] <;> norm_num
theorem ofBits_quarter : Ideal.ofBits .f32 0x3E800000#32 = ((1 / 4 : ℝ) : EReal) := by
  simp [Ideal.ofBits, Ideal.ieee, -EReal.coe_mul] <;> norm_num
/-- `4096 · 4095`, the number of ordered pairs of distinct rows among 4096. -/
theorem ofBits_pairs : Ideal.ofBits .f32 0x4B7FF000#32 = ((16773120 : ℝ) : EReal) := by
  simp [Ideal.ofBits, Ideal.ieee, -EReal.coe_mul] <;> norm_num
/-- `4096²`. -/
theorem ofBits_sq4096 : Ideal.ofBits .f32 0x4B800000#32 = ((16777216 : ℝ) : EReal) := by
  simp [Ideal.ofBits, Ideal.ieee, -EReal.coe_mul] <;> norm_num
/-- `2048²`. -/
theorem ofBits_sq2048 : Ideal.ofBits .f32 0x4A800000#32 = ((4194304 : ℝ) : EReal) := by
  simp [Ideal.ofBits, Ideal.ieee, -EReal.coe_mul] <;> norm_num

end Cert.Consts

end
-- ==== Proof.RefReadOps.lean ====
/-
  The block's layout, reduction and contraction operations read at an index, at the ideal values: each is a small
  statement over an arbitrary array of extended reals, so that the large tables are never unfolded.
-/
import proofs.«165374_j9122510537222_1_alg».proof.Proof.RefBlock
import proofs.«165374_j9122510537222_1_alg».proof.Proof.Spec
import proofs.«165374_j9122510537222_1_alg».proof.Proof.Consts
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.ValueIdx
open scoped BigOperators

/-- The sum over axis 1 from the zero pattern: at row `i`, the sum of the row's 512 entries. -/
theorem rowSum_apply (Y : S4096x512.Idx → EReal) (i : Fin 4096) :
    Host.reduceAdd (F := Ideal) (φ := .f32) Y (constant S_ .f32 0x00000000#32) reducesTo_S4096x512_S4096_d1 h_S_ (ix1 i)
      = ∑ k : Fin 512, Y (ix2 i k) := by
  rw [hostReduceAdd_apply, Ideal.hostReduceAdd_single reducesTo_S4096x512_S4096_d1 (by decide)]
  rw [constant_apply, Cert.Consts.ofBits_zero, zero_add]
  refine Finset.sum_congr rfl fun k _ => congrArg Y ?_
  funext c
  match c with
  | ⟨0, _⟩ => rfl
  | ⟨1, _⟩ => rfl

/-- The sum over both axes from the zero pattern: the double sum over rows and columns. -/
theorem totalSum_apply (D : S4096x4096.Idx → EReal) (z : S_.Idx) :
    Host.reduceAdd (F := Ideal) (φ := .f32) D (constant S_ .f32 0x00000000#32) reducesTo_S4096x4096_S_d0_1 h_S_ z
      = ∑ i : Fin 4096, ∑ j : Fin 4096, D (ix2 i j) := by
  rw [hostReduceAdd_apply, Ideal.hostReduceAdd_total reducesTo_S4096x4096_S_d0_1 (fun b => b.elim0)]
  rw [constant_apply, Cert.Consts.ofBits_zero, zero_add]
  exact sum_idx2 D

/-- A vector broadcast as a column and then over the columns reads, at `(i, j)`, its entry `i`. -/
theorem colBcast_apply (v : S4096.Idx → EReal) (i j : Fin 4096) :
    broadcastInDim S4096x4096 ![0, 1] bcast_S4096x1_S4096x4096_0_1 (broadcastInDim S4096x1 ![0] bcast_S4096_S4096x1_0 v) (ix2 i j)
      = v (ix1 i) := by
  rw [broadcastInDim_apply _ _ _ (ix2 i j) (ix2 i (0 : Fin 1)) (fun a => by
    match a with
    | ⟨0, _⟩ => rfl
    | ⟨1, _⟩ => rfl)]
  exact broadcastInDim_apply _ _ _ (ix2 i (0 : Fin 1)) (ix1 i) (fun a => by
    match a with
    | ⟨0, _⟩ => rfl)

/-- A vector broadcast as a row and then over the rows reads, at `(i, j)`, its entry `j`. -/
theorem rowBcast_apply (v : S4096.Idx → EReal) (i j : Fin 4096) :
    broadcastInDim S4096x4096 ![0, 1] bcast_S1x4096_S4096x4096_0_1 (broadcastInDim S1x4096 ![1] bcast_S4096_S1x4096_1 v) (ix2 i j)
      = v (ix1 j) := by
  rw [broadcastInDim_apply _ _ _ (ix2 i j) (ix2 (0 : Fin 1) j) (fun a => by
    match a with
    | ⟨0, _⟩ => rfl
    | ⟨1, _⟩ => rfl)]
  exact broadcastInDim_apply _ _ _ (ix2 (0 : Fin 1) j) (ix1 j) (fun a => by
    match a with
    | ⟨0, _⟩ => rfl)

/-- A scalar broadcast over the table reads the scalar. -/
theorem scalarBcast_apply (w : S_.Idx → EReal) (p : S4096x4096.Idx) :
    broadcastInDim S4096x4096 ![] bcast_S_S4096x4096 w p = w ix0 :=
  broadcastInDim_scalar_apply _ w p

/-- The product of an array with its own transpose reads, at `(i, j)`, the inner product of rows `i` and `j`. -/
theorem gram_apply (X : S4096x512.Idx → EReal) (i j : Fin 4096) :
    Host.dotGeneral (F := Ideal) (φ₁ := .f32) (φ₂ := .f32) dot_S4096x512_S512x4096_S4096x4096_1_0_0_1_n_n none X
        (transpose S512x4096 [1, 0] X transposes_S4096x512_S512x4096_1_0) (ix2 i j)
      = ∑ k : Fin 512, X (ix2 i k) * X (ix2 j k) := by
  simp only [Host.dotGeneral]
  rw [Ideal.dotGeneral_apply]
  refine Fintype.sum_equiv (contrEquiv1 dot_S4096x512_S512x4096_S4096x4096_1_0_0_1_n_n 512 rfl rfl) _ _ fun q => ?_
  have hl : (dot_S4096x512_S512x4096_S4096x4096_1_0_0_1_n_n).lhsIdx (ix2 i j) q = ix2 i (contrEquiv1 dot_S4096x512_S512x4096_S4096x4096_1_0_0_1_n_n 512 rfl rfl q) := by
    funext a
    match a with
    | ⟨0, _⟩ => exact Fin.ext rfl
    | ⟨1, _⟩ => exact Fin.ext rfl
  have hr : (dot_S4096x512_S512x4096_S4096x4096_1_0_0_1_n_n).rhsIdx (ix2 i j) q = ix2 (contrEquiv1 dot_S4096x512_S512x4096_S4096x4096_1_0_0_1_n_n 512 rfl rfl q) j := by
    funext a
    match a with
    | ⟨0, _⟩ => exact Fin.ext rfl
    | ⟨1, _⟩ => exact Fin.ext rfl
  rw [hl, hr, transpose_ix2_apply]

end Cert.ReferenceIdeal.RefValue

end
-- ==== Proof.RefReadBlock.lean ====
/-
  The block read at the ideal values: the table of squared distances is `dist` of the stacked rows, the bandwidth is
  `refBw`, the kernel table is `ksum` entry by entry, and the block's mean is `refMean`.
-/
import proofs.«165374_j9122510537222_1_alg».proof.Proof.RefReadOps

noncomputable section

namespace Cert.ReferenceIdeal.RefValue

open Cert.ReferenceIdeal Cert.ReferenceIdeal.Gen Idealize.ShloMosaic Idealize.ShloMosaic.ValueIdx
open scoped BigOperators

/-- The rows of a stacked array. -/
def rowsOf (X : S4096x512.Idx → EReal) : Cert.Spec.Rows 4096 := fun i k => X (ix2 i k)

/-- The squared row lengths. -/
theorem sqv_apply (X : S4096x512.Idx → EReal) (i : Fin 4096) :
    sqv (F := Ideal) X (ix1 i) = Cert.Spec.sq (rowsOf X) i := by
  unfold sqv
  rw [rowSum_apply]
  exact Finset.sum_congr rfl fun k _ => rfl

/-- The table of squared distances. -/
theorem pairD2_apply (X : S4096x512.Idx → EReal) (i j : Fin 4096) :
    pairD2 (F := Ideal) X (ix2 i j) = Cert.Spec.dist (rowsOf X) (rowsOf X) i j := by
  unfold pairD2
  rw [subf_apply, addf_apply, mulf_apply, colBcast_apply, rowBcast_apply, scalarBcast_apply, constant_apply,
    Cert.Consts.ofBits_two, gram_apply, sqv_apply, sqv_apply]
  rfl

/-- The bandwidth of a table. -/
theorem bwOf_apply (D : S4096x4096.Idx → EReal) :
    bwOf (F := Ideal) D ix0
      = Ideal.div (Ideal.div (∑ i : Fin 4096, ∑ j : Fin 4096, D (ix2 i j)) ((16773120 : ℝ) : EReal)) ((4 : ℝ) : EReal) := by
  unfold bwOf
  rw [hostDivf_apply, hostDivf_apply, totalSum_apply, constant_apply, constant_apply, Cert.Consts.ofBits_pairs,
    Cert.Consts.ofBits_four]

/-- One kernel term at an entry. -/
theorem expTerm_apply (D : S4096x4096.Idx → EReal) (W : S_.Idx → EReal) (c : BitVec 32) (p : S4096x4096.Idx) :
    expTerm (F := Ideal) D W c p = Ideal.exp (Ideal.div (-(D p)) (W ix0 * Ideal.ofBits .f32 c)) := by
  unfold expTerm
  show Ideal.exp (Ideal.div (-(D p)) (broadcastInDim S4096x4096 ![] bcast_S_S4096x4096 (mulf (F := Ideal) (φ := .f32) W (constant S_ .f32 c)) p)) = _
  rw [scalarBcast_apply]
  rfl

/-- The kernel table at an entry. -/
theorem kTable_apply (D : S4096x4096.Idx → EReal) (W : S_.Idx → EReal) (p : S4096x4096.Idx) :
    kTable (F := Ideal) D W p = Cert.Spec.ksum (D p) (W ix0) := by
  unfold kTable
  rw [addf_apply, addf_apply, addf_apply, addf_apply, addf_apply, scalarBcast_apply, constant_apply,
    Cert.Consts.ofBits_zero, zero_add]
  simp only [expTerm_apply, Cert.Consts.ofBits_one, Cert.Consts.ofBits_two, Cert.Consts.ofBits_four, Cert.Consts.ofBits_eight,
    Cert.Consts.ofBits_sixteen]
  rfl

/-- The mean of a table. -/
theorem meanOf_apply (K : S4096x4096.Idx → EReal) :
    meanOf (F := Ideal) K ix0 = Ideal.div (∑ i : Fin 4096, ∑ j : Fin 4096, K (ix2 i j)) ((16777216 : ℝ) : EReal) := by
  unfold meanOf
  rw [hostDivf_apply, totalSum_apply, constant_apply, Cert.Consts.ofBits_sq4096]

/-- The block's bandwidth is the specification's. -/
theorem bwOf_pairD2 (X : S4096x512.Idx → EReal) :
    bwOf (F := Ideal) (pairD2 (F := Ideal) X) ix0 = Cert.Spec.refBw (rowsOf X) := by
  rw [bwOf_apply]
  unfold Cert.Spec.refBw Cert.Spec.refSum
  simp only [pairD2_apply]

/-- The whole block is the specification's mean. -/
theorem pairMean_apply (X : S4096x512.Idx → EReal) :
    pairMean (F := Ideal) X ix0 = Cert.Spec.refMean (rowsOf X) := by
  unfold pairMean
  rw [meanOf_apply]
  unfold Cert.Spec.refMean
  simp only [kTable_apply, pairD2_apply, bwOf_pairD2]

/-- The combination of three scalars. -/
theorem combine_apply (a b c : S_.Idx → EReal) :
    combine (F := Ideal) a b c ix0 = (a ix0 + b ix0) - ((2 : ℝ) : EReal) * c ix0 := by
  unfold combine
  rw [subf_apply, addf_apply, mulf_apply, constant_apply, Cert.Consts.ofBits_two]

end Cert.ReferenceIdeal.RefValue

end
-- ==== Proof.RefStack.lean ====
/-
  The three stackings: the two slices of the argument are its source and target rows, and a concatenation of two
  2048-row arrays along axis 0 is the one stacked on the other.
-/
import proofs.«165374_j9122510537222_1_alg».proof.Proof.RefReadBlock

noncomputable section

namespace Cert.ReferenceIdeal.RefValue

open Cert.ReferenceIdeal Cert.ReferenceIdeal.Gen Cert.ReferenceIdeal.Value Idealize.ShloMosaic Idealize.ShloMosaic.ValueIdx
open Idealize.ShloMosaic.TcCoe Idealize.SL.Sem Idealize.ShloMosaic.StableHlo
open scoped BigOperators

/-- Two arrays of 2048 rows concatenated along axis 0: the first stacked on the second. -/
theorem stack_rows (a b : S2048x512.Idx → EReal) :
    rowsOf (concatenate S4096x512 0 [⟨S2048x512, a⟩, ⟨S2048x512, b⟩] concatenates_S2048x512_S2048x512_S4096x512_d0)
      = Cert.Spec.total (fun p k => a (ix2 p k)) (fun p k => b (ix2 p k)) := by
  funext i k
  unfold rowsOf Cert.Spec.total
  by_cases h : i.val < 2048
  · rw [dif_pos h]
    exact concatenate_apply_piece (0 : Fin S4096x512.rank) [⟨S2048x512, a⟩, ⟨S2048x512, b⟩]
      concatenates_S2048x512_S2048x512_S4096x512_d0 (ix2 i k)
      0 (show 0 < 2 from Nat.zero_lt_two) S2048x512 a rfl rfl 0 rfl (ix2 ⟨i.val, h⟩ k)
      (fun c hc => by
        match c with
        | ⟨0, _⟩ => exact absurd rfl hc
        | ⟨1, _⟩ => rfl)
      (Nat.zero_add _)
  · rw [dif_neg h]
    have hi := i.isLt
    exact concatenate_apply_piece (0 : Fin S4096x512.rank) [⟨S2048x512, a⟩, ⟨S2048x512, b⟩]
      concatenates_S2048x512_S2048x512_S4096x512_d0 (ix2 i k)
      1 (show 1 < 2 from Nat.one_lt_two) S2048x512 b rfl rfl 2048 rfl (ix2 ⟨i.val - 2048, by omega⟩ k)
      (fun c hc => by
        match c with
        | ⟨0, _⟩ => exact absurd rfl hc
        | ⟨1, _⟩ => rfl)
      (by show 2048 + (i.val - 2048) = i.val; omega)

/-- The slice of rows 0 … 2047 is the source rows. -/
theorem src_slice (A : S4096x512.Idx → EReal) :
    (fun p k => extractStridedSlice S2048x512 ![0, 0] A slices_S4096x512_S2048x512_0_0 (ix2 p k)) = Cert.Spec.srcRows A := by
  funext p k
  exact slice2_axis0_apply 0 A _ p k ⟨p.val, by have := p.isLt; omega⟩ (Nat.zero_add _).symm

/-- The slice of rows 2048 … 4095 is the target rows. -/
theorem tgt_slice (A : S4096x512.Idx → EReal) :
    (fun p k => extractStridedSlice S2048x512 ![2048, 0] A slices_S4096x512_S2048x512_2048_0 (ix2 p k)) = Cert.Spec.tgtRows A := by
  funext p k
  exact slice2_axis0_apply 2048 A _ p k ⟨2048 + p.val, by have := p.isLt; omega⟩ rfl

variable (V0 : Valuation τ sig (Elt Ideal))

theorem stacked_ss :
    rowsOf (res_main_v2 V0) = Cert.Spec.total (Cert.Spec.srcRows (V0 (Proc.devRef .tc main_arg0))) (Cert.Spec.srcRows (V0 (Proc.devRef .tc main_arg0))) := by
  unfold res_main_v2 res_main_v0
  rw [stack_rows, src_slice]

theorem stacked_tt :
    rowsOf (res_main_v51 V0) = Cert.Spec.total (Cert.Spec.tgtRows (V0 (Proc.devRef .tc main_arg0))) (Cert.Spec.tgtRows (V0 (Proc.devRef .tc main_arg0))) := by
  unfold res_main_v51 res_main_v1
  rw [stack_rows, tgt_slice]

theorem stacked_st :
    rowsOf (res_main_v100 V0) = Cert.Spec.total (Cert.Spec.srcRows (V0 (Proc.devRef .tc main_arg0))) (Cert.Spec.tgtRows (V0 (Proc.devRef .tc main_arg0))) := by
  unfold res_main_v100 res_main_v0 res_main_v1
  rw [stack_rows, src_slice, tgt_slice]

/-- The combination of the three block means is the specification's result. -/
theorem combined_spec :
    combine (F := Ideal) (pairMean (F := Ideal) (res_main_v2 V0)) (pairMean (F := Ideal) (res_main_v51 V0)) (pairMean (F := Ideal) (res_main_v100 V0))
      = fun _ => Cert.Spec.refResult (Cert.Spec.srcRows (V0 (Proc.devRef .tc main_arg0))) (Cert.Spec.tgtRows (V0 (Proc.devRef .tc main_arg0))) := by
  funext z
  have hz := eq_ix0 z
  subst hz
  rw [combine_apply, pairMean_apply, pairMean_apply, pairMean_apply, stacked_ss, stacked_tt, stacked_st]
  rfl

end Cert.ReferenceIdeal.RefValue

end
-- ==== Proof.RefValue.lean ====
/-
  The reference program read as the specification: every weakly fair execution of the reference ends with its result
  at `refResult` of the argument's source and target rows, the arguments unchanged.  The run's composed term is the
  combination of three block means; each mean is `refMean` of a stacking of the two halves of the argument.
-/
import proofs.«165374_j9122510537222_1_alg».proof.Proof.RefStack

noncomputable section

namespace Cert.ReferenceIdeal.RefValue

open Cert.ReferenceIdeal Cert.ReferenceIdeal.Gen Cert.ReferenceIdeal.Value Idealize.ShloMosaic Idealize.ShloMosaic.ValueIdx
open Idealize.ShloMosaic.TcCoe Idealize.SL.Sem Idealize.ShloMosaic.StableHlo

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v151)
          = (fun _ => Cert.Spec.refResult (Cert.Spec.srcRows (m ((c.tc : Thread nD τ).loc main_arg0))) (Cert.Spec.tgtRows (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((composed_eq (launchContents m c)).trans (combined_spec (launchContents m c))), (h c).2⟩)
    (Value.run m ρ)

end Cert.ReferenceIdeal.RefValue

end
-- ==== Proof.RunValued.lean ====
/-
  The kernel program's run, with its result named.

  The program is five segments: the two row slices, the first pass, the scalar operations that turn the three table
  sums into three bandwidths, the second pass, and the scalar operations that combine the five table averages.  Every
  weakly fair execution ends with every unscoped buffer at the contents the last segment leaves (`Gen.W5`), so in
  particular the result buffer holds `Gen.W5` at the result, and the two arguments are as launched.
-/
import proofs.«165374_j9122510537222_1_alg».proof.Proof.Gen.KernelIdeal.Frame

set_option maxRecDepth 16384

noncomputable section

namespace Cert.KernelIdeal.RunValued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v44 (by decide)),
       (h c _ (mem_uc main_arg0 (by decide))).trans (W5_main_arg0 m ρ c),
       (h c _ (mem_uc main_arg1 (by decide))).trans (W5_main_arg1 m ρ c)⟩)

end Cert.KernelIdeal.RunValued

end
-- ==== Proof.Geom.lean ====
/-
  The geometry of the two passes' windows.

  In both passes every window's block index is constant over the 4 × 4 grid.  The operands (the two 2048 × 512 point
  arrays, and in the second pass the three 1 × 1 bandwidths) are therefore read whole at every point (`iblk…`), and
  each 1 × 1 result is an accumulator written back once, after the last of the 16 points, with what that point left
  (`arr…`).
-/
import proofs.«165374_j9122510537222_1_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Geom

open Cert.KernelIdeal Cert.KernelIdeal.Gen

variable {F : FTy → Type} [FloatOps F]
variable (V : (c : Dev nD) → (b : Ref sig .tc) → Buf (Elt F) ((c : Thread nD τ).loc b))

theorem lastPt0 : (15 : ℕ) < cfg0.N := by rw [show cfg0.N = 16 from N_0]; decide
theorem lastPt1 : (15 : ℕ) < cfg1.N := by rw [show cfg1.N = 16 from N_1]; decide

/-! ## First pass -/

/-- The source points' block at any point is the whole array. -/
theorem iblk0_0 (c : Dev nD) (t : Fin cfg0.N) : (iblk0 V c 0 t : Vec F S2048x512 .f32) = V c main_v0 := by
  have hi : win0_0.index t 0 = 0 ∧ win0_0.index t 1 = 0 :=
    (by decide +kernel : ∀ t : Fin grid0.N, win0_0.index t 0 = 0 ∧ win0_0.index t 1 = 0) t
  funext j
  unfold iblk0
  rw [View.read_apply]
  show V c main_v0 _ = V c main_v0 j
  congr 1
  funext a
  apply Fin.ext
  match a with
  | ⟨0, _⟩ => show win0_0.index t 0 * 2048 + 1 * (j 0).val = (j 0).val; rw [hi.1]; omega
  | ⟨1, _⟩ => show win0_0.index t 1 * 512 + 1 * (j 1).val = (j 1).val; rw [hi.2]; omega

/-- The target points' block at any point is the whole array. -/
theorem iblk0_1 (c : Dev nD) (t : Fin cfg0.N) : (iblk0 V c 1 t : Vec F S2048x512 .f32) = V c main_v1 := by
  have hi : win0_1.index t 0 = 0 ∧ win0_1.index t 1 = 0 :=
    (by decide +kernel : ∀ t : Fin grid0.N, win0_1.index t 0 = 0 ∧ win0_1.index t 1 = 0) t
  funext j
  unfold iblk0
  rw [View.read_apply]
  show V c main_v1 _ = V c main_v1 j
  congr 1
  funext a
  apply Fin.ext
  match a with
  | ⟨0, _⟩ => show win0_1.index t 0 * 2048 + 1 * (j 0).val = (j 0).val; rw [hi.1]; omega
  | ⟨1, _⟩ => show win0_1.index t 1 * 512 + 1 * (j 1).val = (j 1).val; rw [hi.2]; omega

/-- Result array `main_v2_0` ends at what the last point left in its accumulator. -/
theorem arr0_2 (c : Dev nD) : (dat0 V c).arrAt 2 cfg0.N = (outsAt0 V c 15 lastPt0).1 := by
  refine (dat0 V c).arrAt_eq_of_cover 2 (outsAt0 V c 15 lastPt0).1 (fun t hf => ?_) (fun i => ?_)
  · have h15 : t.val = 15 := by have := (flush0_2 t).mp hf; have h16 : t.val < 16 := lt_of_lt_of_eq t.isLt N_0; omega
    obtain rfl : t = ⟨15, lastPt0⟩ := Fin.ext h15
    show (cfg0.win 2).cut (grid0.coords ⟨15, lastPt0⟩) ((dat0 V c).after 2 ⟨15, lastPt0⟩) = _
    rw [after0_2]
    have hz' : (fun a => win0_2.index ⟨15, lastPt0⟩ a * main_v2_0.ty.shape.size a) = fun _ => 0 := funext fun a => by fin_cases a <;> decide +kernel
    exact (Memref.read_access_unit_zero (Elt F) main_v2_0 hz' (fun a => by rw [congrFun hz' a]; simp) (outsAt0 V c 15 lastPt0).1).symm
  · refine ⟨⟨15, lastPt0⟩, (flush0_2 _).mpr rfl, ?_⟩
    show i ∈ ((View.whole main_v2_0).slice (win0_2.rect ⟨15, lastPt0⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index ⟨15, lastPt0⟩ 0 * win0_2.size 0 ≤ (i 0 : Nat) ∧ (i 0 : Nat) < win0_2.index ⟨15, lastPt0⟩ 0 * win0_2.size 0 + win0_2.xsize (grid0.coords ⟨15, lastPt0⟩) 0
      rw [show win0_2.index ⟨15, lastPt0⟩ 0 * win0_2.size 0 = 0 from by decide +kernel, show win0_2.xsize (grid0.coords ⟨15, lastPt0⟩) 0 = 1 from by decide +kernel]; omega
    | ⟨1, _⟩ =>
      show win0_2.index ⟨15, lastPt0⟩ 1 * win0_2.size 1 ≤ (i 1 : Nat) ∧ (i 1 : Nat) < win0_2.index ⟨15, lastPt0⟩ 1 * win0_2.size 1 + win0_2.xsize (grid0.coords ⟨15, lastPt0⟩) 1
      rw [show win0_2.index ⟨15, lastPt0⟩ 1 * win0_2.size 1 = 0 from by decide +kernel, show win0_2.xsize (grid0.coords ⟨15, lastPt0⟩) 1 = 1 from by decide +kernel]; omega

/-- Result array `main_v2_1` ends at what the last point left in its accumulator. -/
theorem arr0_3 (c : Dev nD) : (dat0 V c).arrAt 3 cfg0.N = (outsAt0 V c 15 lastPt0).2.1 := by
  refine (dat0 V c).arrAt_eq_of_cover 3 (outsAt0 V c 15 lastPt0).2.1 (fun t hf => ?_) (fun i => ?_)
  · have h15 : t.val = 15 := by have := (flush0_3 t).mp hf; have h16 : t.val < 16 := lt_of_lt_of_eq t.isLt N_0; omega
    obtain rfl : t = ⟨15, lastPt0⟩ := Fin.ext h15
    show (cfg0.win 3).cut (grid0.coords ⟨15, lastPt0⟩) ((dat0 V c).after 3 ⟨15, lastPt0⟩) = _
    rw [after0_3]
    have hz' : (fun a => win0_3.index ⟨15, lastPt0⟩ a * main_v2_1.ty.shape.size a) = fun _ => 0 := funext fun a => by fin_cases a <;> decide +kernel
    exact (Memref.read_access_unit_zero (Elt F) main_v2_1 hz' (fun a => by rw [congrFun hz' a]; simp) (outsAt0 V c 15 lastPt0).2.1).symm
  · refine ⟨⟨15, lastPt0⟩, (flush0_3 _).mpr rfl, ?_⟩
    show i ∈ ((View.whole main_v2_1).slice (win0_3.rect ⟨15, lastPt0⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index ⟨15, lastPt0⟩ 0 * win0_3.size 0 ≤ (i 0 : Nat) ∧ (i 0 : Nat) < win0_3.index ⟨15, lastPt0⟩ 0 * win0_3.size 0 + win0_3.xsize (grid0.coords ⟨15, lastPt0⟩) 0
      rw [show win0_3.index ⟨15, lastPt0⟩ 0 * win0_3.size 0 = 0 from by decide +kernel, show win0_3.xsize (grid0.coords ⟨15, lastPt0⟩) 0 = 1 from by decide +kernel]; omega
    | ⟨1, _⟩ =>
      show win0_3.index ⟨15, lastPt0⟩ 1 * win0_3.size 1 ≤ (i 1 : Nat) ∧ (i 1 : Nat) < win0_3.index ⟨15, lastPt0⟩ 1 * win0_3.size 1 + win0_3.xsize (grid0.coords ⟨15, lastPt0⟩) 1
      rw [show win0_3.index ⟨15, lastPt0⟩ 1 * win0_3.size 1 = 0 from by decide +kernel, show win0_3.xsize (grid0.coords ⟨15, lastPt0⟩) 1 = 1 from by decide +kernel]; omega

/-- Result array `main_v2_2` ends at what the last point left in its accumulator. -/
theorem arr0_4 (c : Dev nD) : (dat0 V c).arrAt 4 cfg0.N = (outsAt0 V c 15 lastPt0).2.2 := by
  refine (dat0 V c).arrAt_eq_of_cover 4 (outsAt0 V c 15 lastPt0).2.2 (fun t hf => ?_) (fun i => ?_)
  · have h15 : t.val = 15 := by have := (flush0_4 t).mp hf; have h16 : t.val < 16 := lt_of_lt_of_eq t.isLt N_0; omega
    obtain rfl : t = ⟨15, lastPt0⟩ := Fin.ext h15
    show (cfg0.win 4).cut (grid0.coords ⟨15, lastPt0⟩) ((dat0 V c).after 4 ⟨15, lastPt0⟩) = _
    rw [after0_4]
    have hz' : (fun a => win0_4.index ⟨15, lastPt0⟩ a * main_v2_2.ty.shape.size a) = fun _ => 0 := funext fun a => by fin_cases a <;> decide +kernel
    exact (Memref.read_access_unit_zero (Elt F) main_v2_2 hz' (fun a => by rw [congrFun hz' a]; simp) (outsAt0 V c 15 lastPt0).2.2).symm
  · refine ⟨⟨15, lastPt0⟩, (flush0_4 _).mpr rfl, ?_⟩
    show i ∈ ((View.whole main_v2_2).slice (win0_4.rect ⟨15, lastPt0⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_4.index ⟨15, lastPt0⟩ 0 * win0_4.size 0 ≤ (i 0 : Nat) ∧ (i 0 : Nat) < win0_4.index ⟨15, lastPt0⟩ 0 * win0_4.size 0 + win0_4.xsize (grid0.coords ⟨15, lastPt0⟩) 0
      rw [show win0_4.index ⟨15, lastPt0⟩ 0 * win0_4.size 0 = 0 from by decide +kernel, show win0_4.xsize (grid0.coords ⟨15, lastPt0⟩) 0 = 1 from by decide +kernel]; omega
    | ⟨1, _⟩ =>
      show win0_4.index ⟨15, lastPt0⟩ 1 * win0_4.size 1 ≤ (i 1 : Nat) ∧ (i 1 : Nat) < win0_4.index ⟨15, lastPt0⟩ 1 * win0_4.size 1 + win0_4.xsize (grid0.coords ⟨15, lastPt0⟩) 1
      rw [show win0_4.index ⟨15, lastPt0⟩ 1 * win0_4.size 1 = 0 from by decide +kernel, show win0_4.xsize (grid0.coords ⟨15, lastPt0⟩) 1 = 1 from by decide +kernel]; omega

/-! ## Second pass -/

/-- The source points' block at any point is the whole array. -/
theorem iblk1_0 (c : Dev nD) (t : Fin cfg1.N) : (iblk1 V c 0 t : Vec F S2048x512 .f32) = V c main_v0 := by
  have hi : win1_0.index t 0 = 0 ∧ win1_0.index t 1 = 0 :=
    (by decide +kernel : ∀ t : Fin grid1.N, win1_0.index t 0 = 0 ∧ win1_0.index t 1 = 0) t
  funext j
  unfold iblk1
  rw [View.read_apply]
  show V c main_v0 _ = V c main_v0 j
  congr 1
  funext a
  apply Fin.ext
  match a with
  | ⟨0, _⟩ => show win1_0.index t 0 * 2048 + 1 * (j 0).val = (j 0).val; rw [hi.1]; omega
  | ⟨1, _⟩ => show win1_0.index t 1 * 512 + 1 * (j 1).val = (j 1).val; rw [hi.2]; omega

/-- The target points' block at any point is the whole array. -/
theorem iblk1_1 (c : Dev nD) (t : Fin cfg1.N) : (iblk1 V c 1 t : Vec F S2048x512 .f32) = V c main_v1 := by
  have hi : win1_1.index t 0 = 0 ∧ win1_1.index t 1 = 0 :=
    (by decide +kernel : ∀ t : Fin grid1.N, win1_1.index t 0 = 0 ∧ win1_1.index t 1 = 0) t
  funext j
  unfold iblk1
  rw [View.read_apply]
  show V c main_v1 _ = V c main_v1 j
  congr 1
  funext a
  apply Fin.ext
  match a with
  | ⟨0, _⟩ => show win1_1.index t 0 * 2048 + 1 * (j 0).val = (j 0).val; rw [hi.1]; omega
  | ⟨1, _⟩ => show win1_1.index t 1 * 512 + 1 * (j 1).val = (j 1).val; rw [hi.2]; omega

/-- The first bandwidth's block at any point is the scalar. -/
theorem iblk1_2 (c : Dev nD) (t : Fin cfg1.N) : (iblk1 V c 2 t : Vec F S1x1 .f32) = V c main_v8 := by
  have hi : win1_2.index t 0 = 0 ∧ win1_2.index t 1 = 0 :=
    (by decide +kernel : ∀ t : Fin grid1.N, win1_2.index t 0 = 0 ∧ win1_2.index t 1 = 0) t
  funext j
  unfold iblk1
  rw [View.read_apply]
  show V c main_v8 _ = V c main_v8 j
  congr 1
  funext a
  apply Fin.ext
  match a with
  | ⟨0, _⟩ => show win1_2.index t 0 * 1 + 1 * (j 0).val = (j 0).val; rw [hi.1]; omega
  | ⟨1, _⟩ => show win1_2.index t 1 * 1 + 1 * (j 1).val = (j 1).val; rw [hi.2]; omega

/-- The second bandwidth's block at any point is the scalar. -/
theorem iblk1_3 (c : Dev nD) (t : Fin cfg1.N) : (iblk1 V c 3 t : Vec F S1x1 .f32) = V c main_v14 := by
  have hi : win1_3.index t 0 = 0 ∧ win1_3.index t 1 = 0 :=
    (by decide +kernel : ∀ t : Fin grid1.N, win1_3.index t 0 = 0 ∧ win1_3.index t 1 = 0) t
  funext j
  unfold iblk1
  rw [View.read_apply]
  show V c main_v14 _ = V c main_v14 j
  congr 1
  funext a
  apply Fin.ext
  match a with
  | ⟨0, _⟩ => show win1_3.index t 0 * 1 + 1 * (j 0).val = (j 0).val; rw [hi.1]; omega
  | ⟨1, _⟩ => show win1_3.index t 1 * 1 + 1 * (j 1).val = (j 1).val; rw [hi.2]; omega

/-- The mixed bandwidth's block at any point is the scalar. -/
theorem iblk1_4 (c : Dev nD) (t : Fin cfg1.N) : (iblk1 V c 4 t : Vec F S1x1 .f32) = V c main_v22 := by
  have hi : win1_4.index t 0 = 0 ∧ win1_4.index t 1 = 0 :=
    (by decide +kernel : ∀ t : Fin grid1.N, win1_4.index t 0 = 0 ∧ win1_4.index t 1 = 0) t
  funext j
  unfold iblk1
  rw [View.read_apply]
  show V c main_v22 _ = V c main_v22 j
  congr 1
  funext a
  apply Fin.ext
  match a with
  | ⟨0, _⟩ => show win1_4.index t 0 * 1 + 1 * (j 0).val = (j 0).val; rw [hi.1]; omega
  | ⟨1, _⟩ => show win1_4.index t 1 * 1 + 1 * (j 1).val = (j 1).val; rw [hi.2]; omega

/-- Result array `main_v23_0` ends at what the last point left in its accumulator. -/
theorem arr1_5 (c : Dev nD) : (dat1 V c).arrAt 5 cfg1.N = (outsAt1 V c 15 lastPt1).1 := by
  refine (dat1 V c).arrAt_eq_of_cover 5 (outsAt1 V c 15 lastPt1).1 (fun t hf => ?_) (fun i => ?_)
  · have h15 : t.val = 15 := by have := (flush1_5 t).mp hf; have h16 : t.val < 16 := lt_of_lt_of_eq t.isLt N_1; omega
    obtain rfl : t = ⟨15, lastPt1⟩ := Fin.ext h15
    show (cfg1.win 5).cut (grid1.coords ⟨15, lastPt1⟩) ((dat1 V c).after 5 ⟨15, lastPt1⟩) = _
    rw [after1_5]
    have hz' : (fun a => win1_5.index ⟨15, lastPt1⟩ a * main_v23_0.ty.shape.size a) = fun _ => 0 := funext fun a => by fin_cases a <;> decide +kernel
    exact (Memref.read_access_unit_zero (Elt F) main_v23_0 hz' (fun a => by rw [congrFun hz' a]; simp) (outsAt1 V c 15 lastPt1).1).symm
  · refine ⟨⟨15, lastPt1⟩, (flush1_5 _).mpr rfl, ?_⟩
    show i ∈ ((View.whole main_v23_0).slice (win1_5.rect ⟨15, lastPt1⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_5.index ⟨15, lastPt1⟩ 0 * win1_5.size 0 ≤ (i 0 : Nat) ∧ (i 0 : Nat) < win1_5.index ⟨15, lastPt1⟩ 0 * win1_5.size 0 + win1_5.xsize (grid1.coords ⟨15, lastPt1⟩) 0
      rw [show win1_5.index ⟨15, lastPt1⟩ 0 * win1_5.size 0 = 0 from by decide +kernel, show win1_5.xsize (grid1.coords ⟨15, lastPt1⟩) 0 = 1 from by decide +kernel]; omega
    | ⟨1, _⟩ =>
      show win1_5.index ⟨15, lastPt1⟩ 1 * win1_5.size 1 ≤ (i 1 : Nat) ∧ (i 1 : Nat) < win1_5.index ⟨15, lastPt1⟩ 1 * win1_5.size 1 + win1_5.xsize (grid1.coords ⟨15, lastPt1⟩) 1
      rw [show win1_5.index ⟨15, lastPt1⟩ 1 * win1_5.size 1 = 0 from by decide +kernel, show win1_5.xsize (grid1.coords ⟨15, lastPt1⟩) 1 = 1 from by decide +kernel]; omega

/-- Result array `main_v23_1` ends at what the last point left in its accumulator. -/
theorem arr1_6 (c : Dev nD) : (dat1 V c).arrAt 6 cfg1.N = (outsAt1 V c 15 lastPt1).2.1 := by
  refine (dat1 V c).arrAt_eq_of_cover 6 (outsAt1 V c 15 lastPt1).2.1 (fun t hf => ?_) (fun i => ?_)
  · have h15 : t.val = 15 := by have := (flush1_6 t).mp hf; have h16 : t.val < 16 := lt_of_lt_of_eq t.isLt N_1; omega
    obtain rfl : t = ⟨15, lastPt1⟩ := Fin.ext h15
    show (cfg1.win 6).cut (grid1.coords ⟨15, lastPt1⟩) ((dat1 V c).after 6 ⟨15, lastPt1⟩) = _
    rw [after1_6]
    have hz' : (fun a => win1_6.index ⟨15, lastPt1⟩ a * main_v23_1.ty.shape.size a) = fun _ => 0 := funext fun a => by fin_cases a <;> decide +kernel
    exact (Memref.read_access_unit_zero (Elt F) main_v23_1 hz' (fun a => by rw [congrFun hz' a]; simp) (outsAt1 V c 15 lastPt1).2.1).symm
  · refine ⟨⟨15, lastPt1⟩, (flush1_6 _).mpr rfl, ?_⟩
    show i ∈ ((View.whole main_v23_1).slice (win1_6.rect ⟨15, lastPt1⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_6.index ⟨15, lastPt1⟩ 0 * win1_6.size 0 ≤ (i 0 : Nat) ∧ (i 0 : Nat) < win1_6.index ⟨15, lastPt1⟩ 0 * win1_6.size 0 + win1_6.xsize (grid1.coords ⟨15, lastPt1⟩) 0
      rw [show win1_6.index ⟨15, lastPt1⟩ 0 * win1_6.size 0 = 0 from by decide +kernel, show win1_6.xsize (grid1.coords ⟨15, lastPt1⟩) 0 = 1 from by decide +kernel]; omega
    | ⟨1, _⟩ =>
      show win1_6.index ⟨15, lastPt1⟩ 1 * win1_6.size 1 ≤ (i 1 : Nat) ∧ (i 1 : Nat) < win1_6.index ⟨15, lastPt1⟩ 1 * win1_6.size 1 + win1_6.xsize (grid1.coords ⟨15, lastPt1⟩) 1
      rw [show win1_6.index ⟨15, lastPt1⟩ 1 * win1_6.size 1 = 0 from by decide +kernel, show win1_6.xsize (grid1.coords ⟨15, lastPt1⟩) 1 = 1 from by decide +kernel]; omega

/-- Result array `main_v23_2` ends at what the last point left in its accumulator. -/
theorem arr1_7 (c : Dev nD) : (dat1 V c).arrAt 7 cfg1.N = (outsAt1 V c 15 lastPt1).2.2.1 := by
  refine (dat1 V c).arrAt_eq_of_cover 7 (outsAt1 V c 15 lastPt1).2.2.1 (fun t hf => ?_) (fun i => ?_)
  · have h15 : t.val = 15 := by have := (flush1_7 t).mp hf; have h16 : t.val < 16 := lt_of_lt_of_eq t.isLt N_1; omega
    obtain rfl : t = ⟨15, lastPt1⟩ := Fin.ext h15
    show (cfg1.win 7).cut (grid1.coords ⟨15, lastPt1⟩) ((dat1 V c).after 7 ⟨15, lastPt1⟩) = _
    rw [after1_7]
    have hz' : (fun a => win1_7.index ⟨15, lastPt1⟩ a * main_v23_2.ty.shape.size a) = fun _ => 0 := funext fun a => by fin_cases a <;> decide +kernel
    exact (Memref.read_access_unit_zero (Elt F) main_v23_2 hz' (fun a => by rw [congrFun hz' a]; simp) (outsAt1 V c 15 lastPt1).2.2.1).symm
  · refine ⟨⟨15, lastPt1⟩, (flush1_7 _).mpr rfl, ?_⟩
    show i ∈ ((View.whole main_v23_2).slice (win1_7.rect ⟨15, lastPt1⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_7.index ⟨15, lastPt1⟩ 0 * win1_7.size 0 ≤ (i 0 : Nat) ∧ (i 0 : Nat) < win1_7.index ⟨15, lastPt1⟩ 0 * win1_7.size 0 + win1_7.xsize (grid1.coords ⟨15, lastPt1⟩) 0
      rw [show win1_7.index ⟨15, lastPt1⟩ 0 * win1_7.size 0 = 0 from by decide +kernel, show win1_7.xsize (grid1.coords ⟨15, lastPt1⟩) 0 = 1 from by decide +kernel]; omega
    | ⟨1, _⟩ =>
      show win1_7.index ⟨15, lastPt1⟩ 1 * win1_7.size 1 ≤ (i 1 : Nat) ∧ (i 1 : Nat) < win1_7.index ⟨15, lastPt1⟩ 1 * win1_7.size 1 + win1_7.xsize (grid1.coords ⟨15, lastPt1⟩) 1
      rw [show win1_7.index ⟨15, lastPt1⟩ 1 * win1_7.size 1 = 0 from by decide +kernel, show win1_7.xsize (grid1.coords ⟨15, lastPt1⟩) 1 = 1 from by decide +kernel]; omega

/-- Result array `main_v23_3` ends at what the last point left in its accumulator. -/
theorem arr1_8 (c : Dev nD) : (dat1 V c).arrAt 8 cfg1.N = (outsAt1 V c 15 lastPt1).2.2.2.1 := by
  refine (dat1 V c).arrAt_eq_of_cover 8 (outsAt1 V c 15 lastPt1).2.2.2.1 (fun t hf => ?_) (fun i => ?_)
  · have h15 : t.val = 15 := by have := (flush1_8 t).mp hf; have h16 : t.val < 16 := lt_of_lt_of_eq t.isLt N_1; omega
    obtain rfl : t = ⟨15, lastPt1⟩ := Fin.ext h15
    show (cfg1.win 8).cut (grid1.coords ⟨15, lastPt1⟩) ((dat1 V c).after 8 ⟨15, lastPt1⟩) = _
    rw [after1_8]
    have hz' : (fun a => win1_8.index ⟨15, lastPt1⟩ a * main_v23_3.ty.shape.size a) = fun _ => 0 := funext fun a => by fin_cases a <;> decide +kernel
    exact (Memref.read_access_unit_zero (Elt F) main_v23_3 hz' (fun a => by rw [congrFun hz' a]; simp) (outsAt1 V c 15 lastPt1).2.2.2.1).symm
  · refine ⟨⟨15, lastPt1⟩, (flush1_8 _).mpr rfl, ?_⟩
    show i ∈ ((View.whole main_v23_3).slice (win1_8.rect ⟨15, lastPt1⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_8.index ⟨15, lastPt1⟩ 0 * win1_8.size 0 ≤ (i 0 : Nat) ∧ (i 0 : Nat) < win1_8.index ⟨15, lastPt1⟩ 0 * win1_8.size 0 + win1_8.xsize (grid1.coords ⟨15, lastPt1⟩) 0
      rw [show win1_8.index ⟨15, lastPt1⟩ 0 * win1_8.size 0 = 0 from by decide +kernel, show win1_8.xsize (grid1.coords ⟨15, lastPt1⟩) 0 = 1 from by decide +kernel]; omega
    | ⟨1, _⟩ =>
      show win1_8.index ⟨15, lastPt1⟩ 1 * win1_8.size 1 ≤ (i 1 : Nat) ∧ (i 1 : Nat) < win1_8.index ⟨15, lastPt1⟩ 1 * win1_8.size 1 + win1_8.xsize (grid1.coords ⟨15, lastPt1⟩) 1
      rw [show win1_8.index ⟨15, lastPt1⟩ 1 * win1_8.size 1 = 0 from by decide +kernel, show win1_8.xsize (grid1.coords ⟨15, lastPt1⟩) 1 = 1 from by decide +kernel]; omega

/-- Result array `main_v23_4` ends at what the last point left in its accumulator. -/
theorem arr1_9 (c : Dev nD) : (dat1 V c).arrAt 9 cfg1.N = (outsAt1 V c 15 lastPt1).2.2.2.2 := by
  refine (dat1 V c).arrAt_eq_of_cover 9 (outsAt1 V c 15 lastPt1).2.2.2.2 (fun t hf => ?_) (fun i => ?_)
  · have h15 : t.val = 15 := by have := (flush1_9 t).mp hf; have h16 : t.val < 16 := lt_of_lt_of_eq t.isLt N_1; omega
    obtain rfl : t = ⟨15, lastPt1⟩ := Fin.ext h15
    show (cfg1.win 9).cut (grid1.coords ⟨15, lastPt1⟩) ((dat1 V c).after 9 ⟨15, lastPt1⟩) = _
    rw [after1_9]
    have hz' : (fun a => win1_9.index ⟨15, lastPt1⟩ a * main_v23_4.ty.shape.size a) = fun _ => 0 := funext fun a => by fin_cases a <;> decide +kernel
    exact (Memref.read_access_unit_zero (Elt F) main_v23_4 hz' (fun a => by rw [congrFun hz' a]; simp) (outsAt1 V c 15 lastPt1).2.2.2.2).symm
  · refine ⟨⟨15, lastPt1⟩, (flush1_9 _).mpr rfl, ?_⟩
    show i ∈ ((View.whole main_v23_4).slice (win1_9.rect ⟨15, lastPt1⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_9.index ⟨15, lastPt1⟩ 0 * win1_9.size 0 ≤ (i 0 : Nat) ∧ (i 0 : Nat) < win1_9.index ⟨15, lastPt1⟩ 0 * win1_9.size 0 + win1_9.xsize (grid1.coords ⟨15, lastPt1⟩) 0
      rw [show win1_9.index ⟨15, lastPt1⟩ 0 * win1_9.size 0 = 0 from by decide +kernel, show win1_9.xsize (grid1.coords ⟨15, lastPt1⟩) 0 = 1 from by decide +kernel]; omega
    | ⟨1, _⟩ =>
      show win1_9.index ⟨15, lastPt1⟩ 1 * win1_9.size 1 ≤ (i 1 : Nat) ∧ (i 1 : Nat) < win1_9.index ⟨15, lastPt1⟩ 1 * win1_9.size 1 + win1_9.xsize (grid1.coords ⟨15, lastPt1⟩) 1
      rw [show win1_9.index ⟨15, lastPt1⟩ 1 * win1_9.size 1 = 0 from by decide +kernel, show win1_9.xsize (grid1.coords ⟨15, lastPt1⟩) 1 = 1 from by decide +kernel]; omega

end Cert.KernelIdeal.Geom

end
-- ==== Proof.TileFns.lean ====
/-
  The arithmetic of one 512 × 512 tile, as plain functions of its row blocks, and what those functions are on the
  extended reals.

  A tile pairs a block `a` of 512 rows with a block `b` of 512 rows.  Its table of squared distances is
  `tileDist a b`: entry `(p, q)` is `(|a p|² + |b q|²) - 2 · ⟨a p, b q⟩`, the row lengths taken by a sum along the row
  (`rowSq`) and the inner products by one matrix product with `b` transposed.  Its kernel table at bandwidth `w` is
  `tileKernel D w`: the sum over the five scales `s = 1, 2, 4, 8, 16` of `exp ((0 - D) / (w · s))`.  `sumAll X` adds up a whole
  table and `accum xo X` adds that total to a running 1 × 1 accumulator.

  Read on the extended reals (`rowSq_apply`, `tileDist_apply`, `tileKernel_apply`, `sumAll_eq`) these are the
  specification's `sq`, `dist`, `ksum` and a double sum over `Fin 512 × Fin 512`.
-/
import proofs.«165374_j9122510537222_1_alg».proof.Proof.Gen.KernelIdeal
import proofs.«165374_j9122510537222_1_alg».proof.Proof.Spec
import proofs.«165374_j9122510537222_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx

namespace Cert.KernelIdeal.Tile

open Cert.KernelIdeal Cert.KernelIdeal.Gen

section AnyValues
variable {F : FTy → Type} [FloatOps F]

/-- A loaded 512 × 512 block, as the body names it (a cast to its own shape). -/
def blockOf (v : Vec F S512x512 .f32) : FVec F S512x512 .f32 := shapeCast S512x512 v shapeCasts_S512x512_S512x512

/-- A loaded 1 × 1 scalar, as the body names it. -/
def cellOf1 (v : Vec F S1x1 .f32) : FVec F S1x1 .f32 := shapeCast S1x1 v shapeCasts_S1x1_S1x1

/-- The squared lengths of the rows of `a`, as a column. -/
def rowSq (a : FVec F S512x512 .f32) : FVec F S512x1 .f32 :=
  shapeCast S512x1 (multiReduction .add [1] S512 (mulf a a) 0x00000000#32 reduces_S512x512_S512 (.inl rfl) rfl) shapeCasts_S512_S512x1

/-- The table of squared distances from the rows of `a` (squared lengths `sa`) to the rows of `b` (`sb`). -/
def tileDist (a b : FVec F S512x512 .f32) (sa sb : FVec F S512x1 .f32) : FVec F S512x512 .f32 :=
  subf
    (addf (broadcastTo S512x512 sa broadcasts_S512x1_S512x512)
      (broadcastTo S512x512 (transpose S1x512 [1, 0] sb transposes_S512x1_p1_0_S1x512) broadcasts_S1x512_S512x512))
    (mulf (broadcast S512x512 (Scalar.ofBits .f32 0x40000000#32))
      (matmul dot_S512x512_S512x512_S512x512_1_0_0_1_n_n none a
        (transpose S512x512 [1, 0] b transposes_S512x512_p1_0_S512x512) (constant S512x512 .f32 0x00000000#32)))

/-- One scale's term of the kernel table: `exp ((0 - D) / (w · s))`. -/
def kernelTerm (D : FVec F S512x512 .f32) (w : FVec F S1x1 .f32) (s : BitVec 32) : FVec F S512x512 .f32 :=
  exp (divf (subf (broadcast S512x512 (Scalar.ofBits .f32 0x00000000#32)) D)
    (broadcastTo S512x512 (mulf w (broadcast S1x1 (Scalar.ofBits .f32 s))) broadcasts_S1x1_S512x512))

/-- The kernel table: the five scales' terms added, from zero, in order. -/
def tileKernel (D : FVec F S512x512 .f32) (w : FVec F S1x1 .f32) : FVec F S512x512 .f32 :=
  addf (addf (addf (addf (addf (broadcast S512x512 (Scalar.ofBits .f32 0x00000000#32)) (kernelTerm D w 0x3F800000#32))
    (kernelTerm D w 0x40000000#32)) (kernelTerm D w 0x40800000#32)) (kernelTerm D w 0x41000000#32)) (kernelTerm D w 0x41800000#32)

/-- The total of a table. -/
def sumAll (X : FVec F S512x512 .f32) : F .f32 :=
  extractAt ![0, 0, 0]
    (shapeCast S1x1x1 (multiReduction .add [1, 2] S1 (shapeCast S1x512x512 X shapeCasts_S512x512_S1x512x512) 0x00000000#32
      reduces_S1x512x512_S1 (.inl rfl) rfl) shapeCasts_S1_S1x1x1) inpos_S1x1x1_p0_0_0

/-- The accumulator after a tile: what it held plus the tile's total. -/
def accum (xo : FVec F S1x1 .f32) (X : FVec F S512x512 .f32) : FVec F S1x1 .f32 := addf xo (broadcast S1x1 (sumAll X))

/-- The accumulator's reset value. -/
def zeroCell : FVec F S1x1 .f32 := broadcast S1x1 (Scalar.ofBits .f32 0x00000000#32)

/-- The distance table of two loaded row blocks. -/
def pairDist (u v : Vec F S512x512 .f32) : FVec F S512x512 .f32 :=
  tileDist (blockOf u) (blockOf v) (rowSq (blockOf u)) (rowSq (blockOf v))

end AnyValues

/-! ## On the extended reals -/

theorem blockOf_eq (v : Vec Ideal S512x512 .f32) : blockOf v = v := shapeCast_self v _
theorem cellOf1_eq (v : Vec Ideal S1x1 .f32) : cellOf1 v = v := shapeCast_self v _

/-- A row's squared length is the sum of its squared entries. -/
theorem rowSq_apply (a : FVec Ideal S512x512 .f32) (p : Fin 512) :
    rowSq a (ix2 p (0 : Fin 1)) = ∑ k : Fin 512, a (ix2 p k) * a (ix2 p k) := by
  unfold rowSq
  rw [shapeCast_apply _ _ (ix2 p (0 : Fin 1)) (ix1 p) (by rw [Shape.rowMajor_val_one, Shape.rowMajor_val_two]; show p.val = p.val * 1 + 0; omega)]
  refine (Ideal.multiReduction_add_single (mulf a a) 0x00000000#32 reduces_S512x512_S512 (.inl rfl) rfl (ix1 p)).trans ?_
  refine Finset.sum_congr rfl fun k _ => ?_
  have e : reduces_S512x512_S512.lift (ix1 p) k = ix2 p k := by
    funext ax; apply Fin.ext
    match ax with
    | ⟨0, _⟩ => rfl
    | ⟨1, _⟩ => rfl
  rw [e]; rfl

end Cert.KernelIdeal.Tile

end
-- ==== Proof.Pieces.lean ====
/-
  What one grid point leaves in each accumulator, as a value.

  At a grid point `i = (I, J)` the body loads row block `I` and row block `J` of the source points and of the target
  points (`rowsI`, `rowsJ`: 512 rows starting at row `512 I`, `512 J`), forms the three distance tables of the tile, and
  adds each table's total (first pass) or each kernel table's total (second pass) to its 1 × 1 accumulator.  At the
  first point the accumulators are reset to zero before they are read; at every other point they carry what the point
  before left.  Each lemma below reads one accumulator's covering store back: the accumulator's previous contents
  (or the reset value) plus the total of its table.
-/
import proofs.«165374_j9122510537222_1_alg».proof.Proof.Gen.KernelIdeal.Frame
import proofs.«165374_j9122510537222_1_alg».proof.Proof.TileFns
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Tile

variable {F : FTy → Type} [FloatOps F]

theorem hz2 : (![0, 0] : Fin 2 → Nat) = fun _ => 0 := funext fun a => by fin_cases a <;> rfl

/-- Row block `I` of a 2048-row array, at a point of the first pass. -/
def rowsI0 (i : grid0.Coords) (x : Vec F S2048x512 .f32) : Vec F S512x512 .f32 :=
  View.ld x (Rect.unit (s := S2048x512) (k0_off1 i) S512x512.size (k0_off1_inb i))
/-- Row block `J`, first pass. -/
def rowsJ0 (i : grid0.Coords) (x : Vec F S2048x512 .f32) : Vec F S512x512 .f32 :=
  View.ld x (Rect.unit (s := S2048x512) (k0_off2 i) S512x512.size (k0_off2_inb i))
/-- Row block `I`, second pass. -/
def rowsI1 (i : grid1.Coords) (x : Vec F S2048x512 .f32) : Vec F S512x512 .f32 :=
  View.ld x (Rect.unit (s := S2048x512) (k1_off1 i) S512x512.size (k1_off1_inb i))
/-- Row block `J`, second pass. -/
def rowsJ1 (i : grid1.Coords) (x : Vec F S2048x512 .f32) : Vec F S512x512 .f32 :=
  View.ld x (Rect.unit (s := S2048x512) (k1_off2 i) S512x512.size (k1_off2_inb i))

/-! ## First pass -/

theorem out0_B_2_eq (c : Dev nD) (i : grid0.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x0 x1 : Vec F S2048x512 .f32) (xo2 xo3 xo4 : Vec F S1x1 .f32) :
    out0_B_2 c i a2 h2 a3 h3 a4 h4 a5 h5 a6 h6 hc x0 x1 xo2 xo3 xo4
      = accum (cellOf1 xo2) (pairDist (rowsI0 i x0) (rowsJ0 i x0)) := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread, View.ld_unit_zero (S := S1x1) hz2]
  rfl

theorem out0_A_2_eq (c : Dev nD) (i : grid0.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x0 x1 : Vec F S2048x512 .f32) :
    out0_A_2 c i a2 h2 a3 h3 a4 h4 a5 h5 a6 h6 hc x0 x1
      = accum (cellOf1 zeroCell) (pairDist (rowsI0 i x0) (rowsJ0 i x0)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, View.ld_unit_zero (S := S1x1) hz2]
  rfl

theorem out0_B_3_eq (c : Dev nD) (i : grid0.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x0 x1 : Vec F S2048x512 .f32) (xo2 xo3 xo4 : Vec F S1x1 .f32) :
    out0_B_3 c i a2 h2 a3 h3 a4 h4 a5 h5 a6 h6 hc x0 x1 xo2 xo3 xo4
      = accum (cellOf1 xo3) (pairDist (rowsI0 i x1) (rowsJ0 i x1)) := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread, View.ld_unit_zero (S := S1x1) hz2]
  rfl

theorem out0_A_3_eq (c : Dev nD) (i : grid0.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x0 x1 : Vec F S2048x512 .f32) :
    out0_A_3 c i a2 h2 a3 h3 a4 h4 a5 h5 a6 h6 hc x0 x1
      = accum (cellOf1 zeroCell) (pairDist (rowsI0 i x1) (rowsJ0 i x1)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, View.ld_unit_zero (S := S1x1) hz2]
  rfl

theorem out0_B_4_eq (c : Dev nD) (i : grid0.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x0 x1 : Vec F S2048x512 .f32) (xo2 xo3 xo4 : Vec F S1x1 .f32) :
    out0_B_4 c i a2 h2 a3 h3 a4 h4 a5 h5 a6 h6 hc x0 x1 xo2 xo3 xo4
      = accum (cellOf1 xo4) (pairDist (rowsI0 i x0) (rowsJ0 i x1)) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread, View.ld_unit_zero (S := S1x1) hz2]
  rfl

theorem out0_A_4_eq (c : Dev nD) (i : grid0.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x0 x1 : Vec F S2048x512 .f32) :
    out0_A_4 c i a2 h2 a3 h3 a4 h4 a5 h5 a6 h6 hc x0 x1
      = accum (cellOf1 zeroCell) (pairDist (rowsI0 i x0) (rowsJ0 i x1)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, View.ld_unit_zero (S := S1x1) hz2]
  rfl

/-! ## Second pass -/

theorem out1_B_5_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : ¬cond1_0 i) (x0 x1 : Vec F S2048x512 .f32) (x2 x3 x4 xo5 xo6 xo7 xo8 xo9 : Vec F S1x1 .f32) :
    out1_B_5 c i a2 h2 a3 h3 a4 h4 a5 h5 a6 h6 a7 h7 a8 h8 a9 h9 a10 h10 a11 h11 hc x0 x1 x2 x3 x4 xo5 xo6 xo7 xo8 xo9
      = accum (cellOf1 xo5) (tileKernel (pairDist (rowsI1 i x0) (rowsJ1 i x0)) (cellOf1 x2)) := by
  unfold out1_B_5
  rw [View.read_writes_eq_canon _ _ _ (cover1_B_5 c i a2 h2 a3 h3 a4 h4 a5 h5 a6 h6 a7 h7 a8 h8 a9 h9 a10 h10 a11 h11 hc x0 x1 x2 x3 x4 xo5 xo6 xo7 xo8 xo9)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_A_5_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : cond1_0 i) (x0 x1 : Vec F S2048x512 .f32) (x2 x3 x4 : Vec F S1x1 .f32) :
    out1_A_5 c i a2 h2 a3 h3 a4 h4 a5 h5 a6 h6 a7 h7 a8 h8 a9 h9 a10 h10 a11 h11 hc x0 x1 x2 x3 x4
      = accum (cellOf1 zeroCell) (tileKernel (pairDist (rowsI1 i x0) (rowsJ1 i x0)) (cellOf1 x2)) := by
  unfold out1_A_5
  rw [View.read_writes_eq_canon _ _ _ (cover1_A_5 c i a2 h2 a3 h3 a4 h4 a5 h5 a6 h6 a7 h7 a8 h8 a9 h9 a10 h10 a11 h11 hc x0 x1 x2 x3 x4)]
  unfold kernelRun1_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_B_6_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : ¬cond1_0 i) (x0 x1 : Vec F S2048x512 .f32) (x2 x3 x4 xo5 xo6 xo7 xo8 xo9 : Vec F S1x1 .f32) :
    out1_B_6 c i a2 h2 a3 h3 a4 h4 a5 h5 a6 h6 a7 h7 a8 h8 a9 h9 a10 h10 a11 h11 hc x0 x1 x2 x3 x4 xo5 xo6 xo7 xo8 xo9
      = accum (cellOf1 xo6) (tileKernel (pairDist (rowsI1 i x1) (rowsJ1 i x1)) (cellOf1 x3)) := by
  unfold out1_B_6
  rw [View.read_writes_eq_canon _ _ _ (cover1_B_6 c i a2 h2 a3 h3 a4 h4 a5 h5 a6 h6 a7 h7 a8 h8 a9 h9 a10 h10 a11 h11 hc x0 x1 x2 x3 x4 xo5 xo6 xo7 xo8 xo9)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_A_6_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : cond1_0 i) (x0 x1 : Vec F S2048x512 .f32) (x2 x3 x4 : Vec F S1x1 .f32) :
    out1_A_6 c i a2 h2 a3 h3 a4 h4 a5 h5 a6 h6 a7 h7 a8 h8 a9 h9 a10 h10 a11 h11 hc x0 x1 x2 x3 x4
      = accum (cellOf1 zeroCell) (tileKernel (pairDist (rowsI1 i x1) (rowsJ1 i x1)) (cellOf1 x3)) := by
  unfold out1_A_6
  rw [View.read_writes_eq_canon _ _ _ (cover1_A_6 c i a2 h2 a3 h3 a4 h4 a5 h5 a6 h6 a7 h7 a8 h8 a9 h9 a10 h10 a11 h11 hc x0 x1 x2 x3 x4)]
  unfold kernelRun1_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_B_7_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : ¬cond1_0 i) (x0 x1 : Vec F S2048x512 .f32) (x2 x3 x4 xo5 xo6 xo7 xo8 xo9 : Vec F S1x1 .f32) :
    out1_B_7 c i a2 h2 a3 h3 a4 h4 a5 h5 a6 h6 a7 h7 a8 h8 a9 h9 a10 h10 a11 h11 hc x0 x1 x2 x3 x4 xo5 xo6 xo7 xo8 xo9
      = accum (cellOf1 xo7) (tileKernel (pairDist (rowsI1 i x0) (rowsJ1 i x0)) (cellOf1 x4)) := by
  unfold out1_B_7
  rw [View.read_writes_eq_canon _ _ _ (cover1_B_7 c i a2 h2 a3 h3 a4 h4 a5 h5 a6 h6 a7 h7 a8 h8 a9 h9 a10 h10 a11 h11 hc x0 x1 x2 x3 x4 xo5 xo6 xo7 xo8 xo9)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_A_7_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : cond1_0 i) (x0 x1 : Vec F S2048x512 .f32) (x2 x3 x4 : Vec F S1x1 .f32) :
    out1_A_7 c i a2 h2 a3 h3 a4 h4 a5 h5 a6 h6 a7 h7 a8 h8 a9 h9 a10 h10 a11 h11 hc x0 x1 x2 x3 x4
      = accum (cellOf1 zeroCell) (tileKernel (pairDist (rowsI1 i x0) (rowsJ1 i x0)) (cellOf1 x4)) := by
  unfold out1_A_7
  rw [View.read_writes_eq_canon _ _ _ (cover1_A_7 c i a2 h2 a3 h3 a4 h4 a5 h5 a6 h6 a7 h7 a8 h8 a9 h9 a10 h10 a11 h11 hc x0 x1 x2 x3 x4)]
  unfold kernelRun1_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_B_8_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : ¬cond1_0 i) (x0 x1 : Vec F S2048x512 .f32) (x2 x3 x4 xo5 xo6 xo7 xo8 xo9 : Vec F S1x1 .f32) :
    out1_B_8 c i a2 h2 a3 h3 a4 h4 a5 h5 a6 h6 a7 h7 a8 h8 a9 h9 a10 h10 a11 h11 hc x0 x1 x2 x3 x4 xo5 xo6 xo7 xo8 xo9
      = accum (cellOf1 xo8) (tileKernel (pairDist (rowsI1 i x0) (rowsJ1 i x1)) (cellOf1 x4)) := by
  unfold out1_B_8
  rw [View.read_writes_eq_canon _ _ _ (cover1_B_8 c i a2 h2 a3 h3 a4 h4 a5 h5 a6 h6 a7 h7 a8 h8 a9 h9 a10 h10 a11 h11 hc x0 x1 x2 x3 x4 xo5 xo6 xo7 xo8 xo9)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_A_8_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : cond1_0 i) (x0 x1 : Vec F S2048x512 .f32) (x2 x3 x4 : Vec F S1x1 .f32) :
    out1_A_8 c i a2 h2 a3 h3 a4 h4 a5 h5 a6 h6 a7 h7 a8 h8 a9 h9 a10 h10 a11 h11 hc x0 x1 x2 x3 x4
      = accum (cellOf1 zeroCell) (tileKernel (pairDist (rowsI1 i x0) (rowsJ1 i x1)) (cellOf1 x4)) := by
  unfold out1_A_8
  rw [View.read_writes_eq_canon _ _ _ (cover1_A_8 c i a2 h2 a3 h3 a4 h4 a5 h5 a6 h6 a7 h7 a8 h8 a9 h9 a10 h10 a11 h11 hc x0 x1 x2 x3 x4)]
  unfold kernelRun1_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_B_9_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : ¬cond1_0 i) (x0 x1 : Vec F S2048x512 .f32) (x2 x3 x4 xo5 xo6 xo7 xo8 xo9 : Vec F S1x1 .f32) :
    out1_B_9 c i a2 h2 a3 h3 a4 h4 a5 h5 a6 h6 a7 h7 a8 h8 a9 h9 a10 h10 a11 h11 hc x0 x1 x2 x3 x4 xo5 xo6 xo7 xo8 xo9
      = accum (cellOf1 xo9) (tileKernel (pairDist (rowsI1 i x1) (rowsJ1 i x1)) (cellOf1 x4)) := by
  unfold out1_B_9
  rw [View.read_writes_eq_canon _ _ _ (cover1_B_9 c i a2 h2 a3 h3 a4 h4 a5 h5 a6 h6 a7 h7 a8 h8 a9 h9 a10 h10 a11 h11 hc x0 x1 x2 x3 x4 xo5 xo6 xo7 xo8 xo9)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

theorem out1_A_9_eq (c : Dev nD) (i : grid1.Coords) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole)
    (hc : cond1_0 i) (x0 x1 : Vec F S2048x512 .f32) (x2 x3 x4 : Vec F S1x1 .f32) :
    out1_A_9 c i a2 h2 a3 h3 a4 h4 a5 h5 a6 h6 a7 h7 a8 h8 a9 h9 a10 h10 a11 h11 hc x0 x1 x2 x3 x4
      = accum (cellOf1 zeroCell) (tileKernel (pairDist (rowsI1 i x1) (rowsJ1 i x1)) (cellOf1 x4)) := by
  unfold out1_A_9
  rw [View.read_writes_eq_canon _ _ _ (cover1_A_9 c i a2 h2 a3 h3 a4 h4 a5 h5 a6 h6 a7 h7 a8 h8 a9 h9 a10 h10 a11 h11 hc x0 x1 x2 x3 x4)]
  unfold kernelRun1_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, h9.read_unread, h10.read_unread, h11.read_unread, View.ld_unit_zero (S := S1x1) hz2]
  rfl

end Cert.KernelIdeal.Pieces

end
-- ==== Proof.TileRead.lean ====
/-
  One 512 × 512 tile's arithmetic read on the extended reals, entry by entry.

  With `rowsOf u p k = u (p, k)` the rows of a 512 × 512 array:
  * the distance table's entry `(p, q)` is the specification's squared distance of row `p` of `a` to row `q` of `b`
    (`tileDist_apply`, `pairDist_apply`): the column of squared lengths broadcast along the rows reads `|a p|²`, the
    transposed column broadcast along the columns reads `|b q|²`, and the matrix product with `b` transposed is the sum
    over the shared coordinate `k` of `a (p, k) · b (q, k)`;
  * the kernel table's entry is the five-scale sum `ksum` of the distance entry at the bandwidth held in the 1 × 1 cell
    (`tileKernel_apply`): `0 - d = -d` and `0 + x = x` on every extended real;
  * the total of a table is the double sum of its entries (`sumAll_eq`), so the accumulator after a tile is what it held
    plus that double sum (`accum_apply`, `accum_pairDist`, `accum_kernel`).
-/
import proofs.«165374_j9122510537222_1_alg».proof.Proof.TileFns

set_option maxRecDepth 16384

noncomputable section

open Idealize.ShloMosaic Idealize.ShloMosaic.ValueIdx

namespace Cert.KernelIdeal.Tile

open Cert.KernelIdeal Cert.KernelIdeal.Gen

/-- The rows of a 512 × 512 array. -/
def rowsOf (u : Vec Ideal S512x512 .f32) : Cert.Spec.Rows 512 := fun p k => u (ix2 p k)

/-! ## Two broadcasts read at an index -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` cell broadcast to `[a, b]` reads the cell everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The distance table -/

/-- The matrix product with the right factor transposed, read at `(p, q)`: the sum over the shared coordinate. -/
theorem matmulT_apply (a b : FVec Ideal S512x512 .f32) (p q : Fin 512) :
    matmul dot_S512x512_S512x512_S512x512_1_0_0_1_n_n none a
        (transpose S512x512 [1, 0] b transposes_S512x512_p1_0_S512x512) (constant S512x512 .f32 0x00000000#32) (ix2 p q)
      = ∑ k : Fin 512, a (ix2 p k) * b (ix2 q k) := by
  refine (Ideal.matmul_constant_zero_apply dot_S512x512_S512x512_S512x512_1_0_0_1_n_n none a
    (transpose S512x512 [1, 0] b transposes_S512x512_p1_0_S512x512) (ix2 p q)).trans ?_
  rw [← Equiv.sum_comp (contrEquiv1 dot_S512x512_S512x512_S512x512_1_0_0_1_n_n 512 rfl rfl).symm]
  refine Finset.sum_congr rfl fun c _ => ?_
  have c2 := contrEquiv1_symm_val dot_S512x512_S512x512_S512x512_1_0_0_1_n_n 512 rfl rfl c
  have l2 : dot_S512x512_S512x512_S512x512_1_0_0_1_n_n.lhsIdx (ix2 p q) ((contrEquiv1 _ 512 rfl rfl).symm c) = ix2 p c := by
    funext ax; apply Fin.ext
    match ax with
    | ⟨0, _⟩ => simp [DotDims.lhsIdx, dot_S512x512_S512x512_S512x512_1_0_0_1_n_n]; rfl
    | ⟨1, _⟩ => simp [DotDims.lhsIdx, dot_S512x512_S512x512_S512x512_1_0_0_1_n_n]; exact c2
  have r2 : dot_S512x512_S512x512_S512x512_1_0_0_1_n_n.rhsIdx (ix2 p q) ((contrEquiv1 _ 512 rfl rfl).symm c) = ix2 c q := by
    funext ax; apply Fin.ext
    match ax with
    | ⟨0, _⟩ => simp [DotDims.rhsIdx, dot_S512x512_S512x512_S512x512_1_0_0_1_n_n]; exact c2
    | ⟨1, _⟩ => simp [DotDims.rhsIdx, dot_S512x512_S512x512_S512x512_1_0_0_1_n_n]; rfl
  rw [l2, r2, transpose_ix2_apply]

/-- The distance table's entry `(p, q)` is the squared distance of row `p` of `a` to row `q` of `b`. -/
theorem tileDist_apply (a b : FVec Ideal S512x512 .f32) (p q : Fin 512) :
    tileDist a b (rowSq a) (rowSq b) (ix2 p q) = Cert.Spec.dist (rowsOf a) (rowsOf b) p q := by
  unfold tileDist
  rw [subf_apply, addf_apply, mulf_apply, broadcast_apply, matmulT_apply, broadcastTo_a1_ab_apply,
    broadcastTo_1b_ab_apply, transpose_ix2_apply, rowSq_apply, rowSq_apply]
  show _ - Ideal.ofBits .f32 0x40000000#32 * _ = _
  rw [Cert.Consts.ofBits_two]
  rfl

/-- The distance table of two loaded row blocks. -/
theorem pairDist_apply (u v : Vec Ideal S512x512 .f32) (p q : Fin 512) :
    pairDist u v (ix2 p q) = Cert.Spec.dist (rowsOf u) (rowsOf v) p q := by
  unfold pairDist
  rw [blockOf_eq, blockOf_eq]
  exact tileDist_apply u v p q

/-! ## The kernel table -/

/-- One scale's term at `(p, q)`, for a scale pattern `s` denoting the real `c`. -/
theorem kernelTerm_apply (D : FVec Ideal S512x512 .f32) (w : FVec Ideal S1x1 .f32) (s : BitVec 32) (c : ℝ)
    (hs : Ideal.ofBits .f32 s = (c : EReal)) (p q : Fin 512) :
    kernelTerm D w s (ix2 p q)
      = Ideal.exp (Ideal.div (-(D (ix2 p q))) (w (ix2 (0 : Fin 1) (0 : Fin 1)) * (c : EReal))) := by
  unfold kernelTerm
  show Ideal.exp (Ideal.div (Ideal.ofBits .f32 0x00000000#32 - D (ix2 p q))
    (broadcastTo S512x512 (mulf w (broadcast S1x1 (Scalar.ofBits .f32 s))) broadcasts_S1x1_S512x512 (ix2 p q))) = _
  rw [broadcastTo_11_ab_apply, mulf_apply, broadcast_apply, Cert.Consts.ofBits_zero, zero_sub]
  show Ideal.exp (Ideal.div (-(D (ix2 p q))) (w (ix2 (0 : Fin 1) (0 : Fin 1)) * Ideal.ofBits .f32 s)) = _
  rw [hs]

/-- The kernel table's entry is the five-scale kernel value of the distance entry at the cell's bandwidth. -/
theorem tileKernel_apply (D : FVec Ideal S512x512 .f32) (w : FVec Ideal S1x1 .f32) (p q : Fin 512) :
    tileKernel D w (ix2 p q) = Cert.Spec.ksum (D (ix2 p q)) (w (ix2 (0 : Fin 1) (0 : Fin 1))) := by
  unfold tileKernel
  rw [addf_apply, addf_apply, addf_apply, addf_apply, addf_apply, broadcast_apply,
    kernelTerm_apply D w _ 1 Cert.Consts.ofBits_one, kernelTerm_apply D w _ 2 Cert.Consts.ofBits_two,
    kernelTerm_apply D w _ 4 Cert.Consts.ofBits_four, kernelTerm_apply D w _ 8 Cert.Consts.ofBits_eight,
    kernelTerm_apply D w _ 16 Cert.Consts.ofBits_sixteen]
  show Ideal.ofBits .f32 0x00000000#32 + _ + _ + _ + _ + _ = _
  rw [Cert.Consts.ofBits_zero, zero_add]
  rfl

/-! ## The total of a table -/

/-- The indices of a `[1, 512, 512]` array are the pairs of its last two coordinates. -/
def idxEquiv1ab : S1x512x512.Idx ≃ Fin 512 × Fin 512 where
  toFun i := (i 1, i 2)
  invFun pq := ix3 (0 : Fin 1) pq.1 pq.2
  left_inv i := by
    funext a
    match a with
    | ⟨0, _⟩ => exact Fin.ext (by have h : (i 0).val < 1 := (i 0).isLt; show 0 = (i 0).val; omega)
    | ⟨1, _⟩ => rfl
    | ⟨2, _⟩ => rfl
  right_inv _ := rfl

/-- A sum over a `[1, 512, 512]` index set is the double sum over the last two coordinates. -/
theorem sum_idx1ab {M : Type*} [AddCommMonoid M] (f : S1x512x512.Idx → M) :
    ∑ i, f i = ∑ p : Fin 512, ∑ q : Fin 512, f (ix3 (0 : Fin 1) p q) := by
  rw [← Equiv.sum_comp idxEquiv1ab.symm f, Fintype.sum_prod_type]
  rfl

/-- The total of a table is the double sum of its entries. -/
theorem sumAll_eq (X : FVec Ideal S512x512 .f32) : sumAll X = ∑ p : Fin 512, ∑ q : Fin 512, X (ix2 p q) := by
  unfold sumAll extractAt
  have hj : (fun a => (⟨(![0, 0, 0] : Fin 3 → Nat) a, inpos_S1x1x1_p0_0_0 a⟩ : Fin (S1x1x1.size a)))
      = ix3 (0 : Fin 1) (0 : Fin 1) (0 : Fin 1) := by
    funext a
    match a with
    | ⟨0, _⟩ => rfl
    | ⟨1, _⟩ => rfl
    | ⟨2, _⟩ => rfl
  rw [hj, shapeCast_apply _ _ (ix3 (0 : Fin 1) (0 : Fin 1) (0 : Fin 1)) (ix1 (0 : Fin 1))
    (by rw [Shape.rowMajor_val_one, Shape.rowMajor_val_three]; rfl)]
  refine (Ideal.multiReduction_add_total (shapeCast S1x512x512 X shapeCasts_S512x512_S1x512x512) 0x00000000#32
    reduces_S1x512x512_S1 (fun b => by match b with | ⟨0, _⟩ => rfl) (.inl rfl) rfl (ix1 (0 : Fin 1))).trans ?_
  rw [sum_idx1ab]
  refine Finset.sum_congr rfl fun p _ => Finset.sum_congr rfl fun q _ => ?_
  exact shapeCast_ab_1ab_apply X shapeCasts_S512x512_S1x512x512 (0 : Fin 1) p q

/-! ## The accumulator -/

theorem accum_apply (xo : FVec Ideal S1x1 .f32) (X : FVec Ideal S512x512 .f32) (j : S1x1.Idx) :
    accum xo X j = xo j + ∑ p : Fin 512, ∑ q : Fin 512, X (ix2 p q) := by
  unfold accum
  rw [addf_apply, broadcast_apply, sumAll_eq]

theorem zeroCell_apply (j : S1x1.Idx) : (zeroCell : FVec Ideal S1x1 .f32) j = 0 := by
  unfold zeroCell
  rw [broadcast_apply]
  exact Cert.Consts.ofBits_zero

/-- The accumulator after a tile of squared distances. -/
theorem accum_pairDist (xo : FVec Ideal S1x1 .f32) (u v : Vec Ideal S512x512 .f32) (j : S1x1.Idx) :
    accum xo (pairDist u v) j = xo j + ∑ p : Fin 512, ∑ q : Fin 512, Cert.Spec.dist (rowsOf u) (rowsOf v) p q := by
  rw [accum_apply]
  simp only [pairDist_apply]

/-- The accumulator after a tile of kernel values at the bandwidth held in `w`. -/
theorem accum_kernel (xo : FVec Ideal S1x1 .f32) (u v : Vec Ideal S512x512 .f32) (w : FVec Ideal S1x1 .f32) (j : S1x1.Idx) :
    accum xo (tileKernel (pairDist u v) w) j
      = xo j + ∑ p : Fin 512, ∑ q : Fin 512,
          Cert.Spec.ksum (Cert.Spec.dist (rowsOf u) (rowsOf v) p q) (w (ix2 (0 : Fin 1) (0 : Fin 1))) := by
  rw [accum_apply]
  simp only [tileKernel_apply, pairDist_apply]

end Cert.KernelIdeal.Tile

end
-- ==== Proof.RowsGeom.lean ====
/-
  Which rows a grid point reads.

  Grid point `t` of the 4 × 4 grid has coordinates `(t / 4, t % 4)`.  At coordinates `(I, J)` the body reads rows
  `512 I … 512 I + 511` and rows `512 J … 512 J + 511` of a 2048-row operand: the specification's row blocks `I` and `J`.
-/
import proofs.«165374_j9122510537222_1_alg».proof.Proof.Pieces
import proofs.«165374_j9122510537222_1_alg».proof.Proof.TileRead

set_option maxRecDepth 16384

noncomputable section

open Idealize.ShloMosaic Idealize.ShloMosaic.ValueIdx

namespace Cert.KernelIdeal.Tile

open Cert.KernelIdeal Cert.KernelIdeal.Gen Cert.KernelIdeal.Pieces

/-- The rows of a 2048 × 512 array. -/
def rows2048 (X : Vec Ideal S2048x512 .f32) : Cert.Spec.Rows 2048 := fun p k => X (ix2 p k)

theorem rowsOf_rowsI0 (i : grid0.Coords) (x : Vec Ideal S2048x512 .f32) (I : Fin 4) (hI : (i 0).val = I.val) :
    rowsOf (rowsI0 i x) = Cert.Spec.blk (rows2048 x) I := by
  funext p k
  unfold rowsOf rowsI0 Cert.Spec.blk rows2048
  show x _ = x _
  congr 1
  funext a
  apply Fin.ext
  match a with
  | ⟨0, _⟩ =>
    show k0_off1 i 0 + 1 * p.val = 512 * I.val + p.val
    rw [k0_off1_eq i]
    show 512 * (i 0).val + 1 * p.val = 512 * I.val + p.val
    rw [hI]; omega
  | ⟨1, _⟩ =>
    show k0_off1 i 1 + 1 * k.val = k.val
    rw [k0_off1_eq i]
    show 0 + 1 * k.val = k.val
    omega

theorem rowsOf_rowsJ0 (i : grid0.Coords) (x : Vec Ideal S2048x512 .f32) (I : Fin 4) (hI : (i 1).val = I.val) :
    rowsOf (rowsJ0 i x) = Cert.Spec.blk (rows2048 x) I := by
  funext p k
  unfold rowsOf rowsJ0 Cert.Spec.blk rows2048
  show x _ = x _
  congr 1
  funext a
  apply Fin.ext
  match a with
  | ⟨0, _⟩ =>
    show k0_off2 i 0 + 1 * p.val = 512 * I.val + p.val
    rw [k0_off2_eq i]
    show 512 * (i 1).val + 1 * p.val = 512 * I.val + p.val
    rw [hI]; omega
  | ⟨1, _⟩ =>
    show k0_off2 i 1 + 1 * k.val = k.val
    rw [k0_off2_eq i]
    show 0 + 1 * k.val = k.val
    omega

theorem rowsOf_rowsI1 (i : grid1.Coords) (x : Vec Ideal S2048x512 .f32) (I : Fin 4) (hI : (i 0).val = I.val) :
    rowsOf (rowsI1 i x) = Cert.Spec.blk (rows2048 x) I := by
  funext p k
  unfold rowsOf rowsI1 Cert.Spec.blk rows2048
  show x _ = x _
  congr 1
  funext a
  apply Fin.ext
  match a with
  | ⟨0, _⟩ =>
    show k1_off1 i 0 + 1 * p.val = 512 * I.val + p.val
    rw [k1_off1_eq i]
    show 512 * (i 0).val + 1 * p.val = 512 * I.val + p.val
    rw [hI]; omega
  | ⟨1, _⟩ =>
    show k1_off1 i 1 + 1 * k.val = k.val
    rw [k1_off1_eq i]
    show 0 + 1 * k.val = k.val
    omega

theorem rowsOf_rowsJ1 (i : grid1.Coords) (x : Vec Ideal S2048x512 .f32) (I : Fin 4) (hI : (i 1).val = I.val) :
    rowsOf (rowsJ1 i x) = Cert.Spec.blk (rows2048 x) I := by
  funext p k
  unfold rowsOf rowsJ1 Cert.Spec.blk rows2048
  show x _ = x _
  congr 1
  funext a
  apply Fin.ext
  match a with
  | ⟨0, _⟩ =>
    show k1_off2 i 0 + 1 * p.val = 512 * I.val + p.val
    rw [k1_off2_eq i]
    show 512 * (i 1).val + 1 * p.val = 512 * I.val + p.val
    rw [hI]; omega
  | ⟨1, _⟩ =>
    show k1_off2 i 1 + 1 * k.val = k.val
    rw [k1_off2_eq i]
    show 0 + 1 * k.val = k.val
    omega

/-- The coordinates of grid point `t`, first pass. -/
theorem coords0 : ∀ t : Fin grid0.N, (grid0.coords t 0).val = t.val / 4 ∧ (grid0.coords t 1).val = t.val % 4 := by decide +kernel
/-- The coordinates of grid point `t`, second pass. -/
theorem coords1 : ∀ t : Fin grid1.N, (grid1.coords t 0).val = t.val / 4 ∧ (grid1.coords t 1).val = t.val % 4 := by decide +kernel

end Cert.KernelIdeal.Tile

end
-- ==== Proof.Accum.lean ====
/-
  The accumulators after the last of the 16 grid points.

  Every grid point `t` adds one tile's total to each accumulator: the first point over zero, every other point over what
  the point before left.  By induction on the point (never by listing the points) the accumulator after point `n` holds
  the running sum of the tile totals `0 … n`; after point 15 that is the sum over all 16 tiles: the specification's table
  sums `kerSum` (first pass) and `kerK` at the pass's bandwidths (second pass).
-/
import proofs.«165374_j9122510537222_1_alg».proof.Proof.Gen.KernelIdeal.Frame
import proofs.«165374_j9122510537222_1_alg».proof.Proof.Pieces
import proofs.«165374_j9122510537222_1_alg».proof.Proof.TileRead
import proofs.«165374_j9122510537222_1_alg».proof.Proof.RowsGeom
import proofs.«165374_j9122510537222_1_alg».proof.Proof.Geom

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Tile Cert.KernelIdeal.Pieces

/-! ## Running sums over the tiles -/

/-- The sum of the tile terms `0 … n` (terms past the 16th count as zero). -/
def run (g : Fin 16 → EReal) (n : ℕ) : EReal :=
  ∑ k ∈ Finset.range (n + 1), if hk : k < 16 then g ⟨k, hk⟩ else 0

theorem run_zero (g : Fin 16 → EReal) : run g 0 = g ⟨0, by omega⟩ := by
  unfold run
  rw [Finset.sum_range_one, dif_pos (by omega)]

theorem run_succ (g : Fin 16 → EReal) (n : ℕ) (hn : n + 1 < 16) : run g (n + 1) = run g n + g ⟨n + 1, hn⟩ := by
  unfold run
  rw [Finset.sum_range_succ _ (n + 1), dif_pos hn]

theorem run_last (g : Fin 16 → EReal) : run g 15 = ∑ t : Fin 16, g t := by
  unfold run
  rw [Finset.sum_range]
  exact Finset.sum_congr rfl fun i _ => dif_pos i.isLt

/-! ## One point's contribution, over plain variables -/

theorem cellA0 (i : grid0.Coords) (x y : Vec Ideal S2048x512 .f32) (T : Fin 16) (hI : (i 0).val = T.val / 4)
    (hJ : (i 1).val = T.val % 4) (z : S1x1.Idx) :
    accum (cellOf1 zeroCell) (pairDist (rowsI0 i x) (rowsJ0 i y)) z = Cert.Spec.tileSum (rows2048 x) (rows2048 y) T := by
  rw [cellOf1_eq, accum_pairDist, zeroCell_apply, zero_add, rowsOf_rowsI0 i x (Cert.Spec.tileI T) hI,
    rowsOf_rowsJ0 i y (Cert.Spec.tileJ T) hJ]
  rfl

theorem cellB0 (i : grid0.Coords) (x y : Vec Ideal S2048x512 .f32) (T : Fin 16) (hI : (i 0).val = T.val / 4)
    (hJ : (i 1).val = T.val % 4) (xo : Vec Ideal S1x1 .f32) (z : S1x1.Idx) :
    accum (cellOf1 xo) (pairDist (rowsI0 i x) (rowsJ0 i y)) z = xo z + Cert.Spec.tileSum (rows2048 x) (rows2048 y) T := by
  rw [cellOf1_eq, accum_pairDist, rowsOf_rowsI0 i x (Cert.Spec.tileI T) hI, rowsOf_rowsJ0 i y (Cert.Spec.tileJ T) hJ]
  rfl

theorem cellA1 (i : grid1.Coords) (x y : Vec Ideal S2048x512 .f32) (w : Vec Ideal S1x1 .f32) (T : Fin 16)
    (hI : (i 0).val = T.val / 4) (hJ : (i 1).val = T.val % 4) (z : S1x1.Idx) :
    accum (cellOf1 zeroCell) (tileKernel (pairDist (rowsI1 i x) (rowsJ1 i y)) (cellOf1 w)) z
      = Cert.Spec.tileK (rows2048 x) (rows2048 y) (w (ix2 (0 : Fin 1) (0 : Fin 1))) T := by
  rw [cellOf1_eq, cellOf1_eq, accum_kernel, zeroCell_apply, zero_add, rowsOf_rowsI1 i x (Cert.Spec.tileI T) hI,
    rowsOf_rowsJ1 i y (Cert.Spec.tileJ T) hJ]
  rfl

theorem cellB1 (i : grid1.Coords) (x y : Vec Ideal S2048x512 .f32) (w : Vec Ideal S1x1 .f32) (T : Fin 16)
    (hI : (i 0).val = T.val / 4) (hJ : (i 1).val = T.val % 4) (xo : Vec Ideal S1x1 .f32) (z : S1x1.Idx) :
    accum (cellOf1 xo) (tileKernel (pairDist (rowsI1 i x) (rowsJ1 i y)) (cellOf1 w)) z
      = xo z + Cert.Spec.tileK (rows2048 x) (rows2048 y) (w (ix2 (0 : Fin 1) (0 : Fin 1))) T := by
  rw [cellOf1_eq, cellOf1_eq, accum_kernel, rowsOf_rowsI1 i x (Cert.Spec.tileI T) hI,
    rowsOf_rowsJ1 i y (Cert.Spec.tileJ T) hJ]
  rfl

/-! ## One point's contribution to each accumulator

Case A is the first point (the accumulators are reset before they are read), case B every other point. -/

section Points
variable (V : (c : Dev nD) → (b : Ref sig .tc) → Buf (Elt Ideal) ((c : Thread nD τ).loc b))

theorem pt0_A_2 (c : Dev nD) (t : Fin cfg0.N) (h0 : t.val % 16 = 0) (tl : t.val < 16) (z : S1x1.Idx) :
    (outsAt0 V c t.val t.isLt).1 z = Cert.Spec.tileSum (rows2048 (V c main_v0)) (rows2048 (V c main_v0)) ⟨t.val, tl⟩ := by
  refine (congrArg (fun o => o.1 z) (outsAt0_A V c t h0)).trans ?_
  refine (congrFun (out0_A_2_eq c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) z).trans ?_
  rw [Geom.iblk0_0 V c t]
  exact cellA0 (grid0.coords t) (V c main_v0) (V c main_v0) ⟨t.val, tl⟩ (coords0 t).1 (coords0 t).2 z

theorem pt0_B_2 (c : Dev nD) (t : Fin cfg0.N) (h0 : ¬t.val % 16 = 0) (tl : t.val < 16) (z : S1x1.Idx) :
    (outsAt0 V c t.val t.isLt).1 z
      = (outsAt0 V c (t.val - 1) (Nat.lt_of_le_of_lt (Nat.sub_le t.val 1) t.isLt)).1 z + Cert.Spec.tileSum (rows2048 (V c main_v0)) (rows2048 (V c main_v0)) ⟨t.val, tl⟩ := by
  refine (congrArg (fun o => o.1 z) (outsAt0_B V c t h0)).trans ?_
  refine (congrFun (out0_B_2_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le t.val 1) t.isLt)).1 (outsAt0 V c (t.val - 1) (Nat.lt_of_le_of_lt (Nat.sub_le t.val 1) t.isLt)).2.1 (outsAt0 V c (t.val - 1) (Nat.lt_of_le_of_lt (Nat.sub_le t.val 1) t.isLt)).2.2) z).trans ?_
  rw [Geom.iblk0_0 V c t]
  exact cellB0 (grid0.coords t) (V c main_v0) (V c main_v0) ⟨t.val, tl⟩ (coords0 t).1 (coords0 t).2 (outsAt0 V c (t.val - 1) (Nat.lt_of_le_of_lt (Nat.sub_le t.val 1) t.isLt)).1 z

theorem pt0_A_3 (c : Dev nD) (t : Fin cfg0.N) (h0 : t.val % 16 = 0) (tl : t.val < 16) (z : S1x1.Idx) :
    (outsAt0 V c t.val t.isLt).2.1 z = Cert.Spec.tileSum (rows2048 (V c main_v1)) (rows2048 (V c main_v1)) ⟨t.val, tl⟩ := by
  refine (congrArg (fun o => o.2.1 z) (outsAt0_A V c t h0)).trans ?_
  refine (congrFun (out0_A_3_eq c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) z).trans ?_
  rw [Geom.iblk0_1 V c t]
  exact cellA0 (grid0.coords t) (V c main_v1) (V c main_v1) ⟨t.val, tl⟩ (coords0 t).1 (coords0 t).2 z

theorem pt0_B_3 (c : Dev nD) (t : Fin cfg0.N) (h0 : ¬t.val % 16 = 0) (tl : t.val < 16) (z : S1x1.Idx) :
    (outsAt0 V c t.val t.isLt).2.1 z
      = (outsAt0 V c (t.val - 1) (Nat.lt_of_le_of_lt (Nat.sub_le t.val 1) t.isLt)).2.1 z + Cert.Spec.tileSum (rows2048 (V c main_v1)) (rows2048 (V c main_v1)) ⟨t.val, tl⟩ := by
  refine (congrArg (fun o => o.2.1 z) (outsAt0_B V c t h0)).trans ?_
  refine (congrFun (out0_B_3_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le t.val 1) t.isLt)).1 (outsAt0 V c (t.val - 1) (Nat.lt_of_le_of_lt (Nat.sub_le t.val 1) t.isLt)).2.1 (outsAt0 V c (t.val - 1) (Nat.lt_of_le_of_lt (Nat.sub_le t.val 1) t.isLt)).2.2) z).trans ?_
  rw [Geom.iblk0_1 V c t]
  exact cellB0 (grid0.coords t) (V c main_v1) (V c main_v1) ⟨t.val, tl⟩ (coords0 t).1 (coords0 t).2 (outsAt0 V c (t.val - 1) (Nat.lt_of_le_of_lt (Nat.sub_le t.val 1) t.isLt)).2.1 z

theorem pt0_A_4 (c : Dev nD) (t : Fin cfg0.N) (h0 : t.val % 16 = 0) (tl : t.val < 16) (z : S1x1.Idx) :
    (outsAt0 V c t.val t.isLt).2.2 z = Cert.Spec.tileSum (rows2048 (V c main_v0)) (rows2048 (V c main_v1)) ⟨t.val, tl⟩ := by
  refine (congrArg (fun o => o.2.2 z) (outsAt0_A V c t h0)).trans ?_
  refine (congrFun (out0_A_4_eq c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) z).trans ?_
  rw [Geom.iblk0_0 V c t, Geom.iblk0_1 V c t]
  exact cellA0 (grid0.coords t) (V c main_v0) (V c main_v1) ⟨t.val, tl⟩ (coords0 t).1 (coords0 t).2 z

theorem pt0_B_4 (c : Dev nD) (t : Fin cfg0.N) (h0 : ¬t.val % 16 = 0) (tl : t.val < 16) (z : S1x1.Idx) :
    (outsAt0 V c t.val t.isLt).2.2 z
      = (outsAt0 V c (t.val - 1) (Nat.lt_of_le_of_lt (Nat.sub_le t.val 1) t.isLt)).2.2 z + Cert.Spec.tileSum (rows2048 (V c main_v0)) (rows2048 (V c main_v1)) ⟨t.val, tl⟩ := by
  refine (congrArg (fun o => o.2.2 z) (outsAt0_B V c t h0)).trans ?_
  refine (congrFun (out0_B_4_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le t.val 1) t.isLt)).1 (outsAt0 V c (t.val - 1) (Nat.lt_of_le_of_lt (Nat.sub_le t.val 1) t.isLt)).2.1 (outsAt0 V c (t.val - 1) (Nat.lt_of_le_of_lt (Nat.sub_le t.val 1) t.isLt)).2.2) z).trans ?_
  rw [Geom.iblk0_0 V c t, Geom.iblk0_1 V c t]
  exact cellB0 (grid0.coords t) (V c main_v0) (V c main_v1) ⟨t.val, tl⟩ (coords0 t).1 (coords0 t).2 (outsAt0 V c (t.val - 1) (Nat.lt_of_le_of_lt (Nat.sub_le t.val 1) t.isLt)).2.2 z

theorem pt1_A_5 (c : Dev nD) (t : Fin cfg1.N) (h0 : t.val % 16 = 0) (tl : t.val < 16) (z : S1x1.Idx) :
    (outsAt1 V c t.val t.isLt).1 z = Cert.Spec.tileK (rows2048 (V c main_v0)) (rows2048 (V c main_v0)) (V c main_v8 (ix2 (0 : Fin 1) (0 : Fin 1))) ⟨t.val, tl⟩ := by
  refine (congrArg (fun o => o.1 z) (outsAt1_A V c t h0)).trans ?_
  refine (congrFun (out1_A_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t)) z).trans ?_
  rw [Geom.iblk1_0 V c t, Geom.iblk1_2 V c t]
  exact cellA1 (grid1.coords t) (V c main_v0) (V c main_v0) (V c main_v8) ⟨t.val, tl⟩ (coords1 t).1 (coords1 t).2 z

theorem pt1_B_5 (c : Dev nD) (t : Fin cfg1.N) (h0 : ¬t.val % 16 = 0) (tl : t.val < 16) (z : S1x1.Idx) :
    (outsAt1 V c t.val t.isLt).1 z
      = (outsAt1 V c (t.val - 1) (Nat.lt_of_le_of_lt (Nat.sub_le t.val 1) t.isLt)).1 z + Cert.Spec.tileK (rows2048 (V c main_v0)) (rows2048 (V c main_v0)) (V c main_v8 (ix2 (0 : Fin 1) (0 : Fin 1))) ⟨t.val, tl⟩ := by
  refine (congrArg (fun o => o.1 z) (outsAt1_B V c t h0)).trans ?_
  refine (congrFun (out1_B_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t)
    (outsAt1 V c (t.val - 1) (Nat.lt_of_le_of_lt (Nat.sub_le t.val 1) t.isLt)).1 (outsAt1 V c (t.val - 1) (Nat.lt_of_le_of_lt (Nat.sub_le t.val 1) t.isLt)).2.1 (outsAt1 V c (t.val - 1) (Nat.lt_of_le_of_lt (Nat.sub_le t.val 1) t.isLt)).2.2.1 (outsAt1 V c (t.val - 1) (Nat.lt_of_le_of_lt (Nat.sub_le t.val 1) t.isLt)).2.2.2.1 (outsAt1 V c (t.val - 1) (Nat.lt_of_le_of_lt (Nat.sub_le t.val 1) t.isLt)).2.2.2.2) z).trans ?_
  rw [Geom.iblk1_0 V c t, Geom.iblk1_2 V c t]
  exact cellB1 (grid1.coords t) (V c main_v0) (V c main_v0) (V c main_v8) ⟨t.val, tl⟩ (coords1 t).1 (coords1 t).2 (outsAt1 V c (t.val - 1) (Nat.lt_of_le_of_lt (Nat.sub_le t.val 1) t.isLt)).1 z

theorem pt1_A_6 (c : Dev nD) (t : Fin cfg1.N) (h0 : t.val % 16 = 0) (tl : t.val < 16) (z : S1x1.Idx) :
    (outsAt1 V c t.val t.isLt).2.1 z = Cert.Spec.tileK (rows2048 (V c main_v1)) (rows2048 (V c main_v1)) (V c main_v14 (ix2 (0 : Fin 1) (0 : Fin 1))) ⟨t.val, tl⟩ := by
  refine (congrArg (fun o => o.2.1 z) (outsAt1_A V c t h0)).trans ?_
  refine (congrFun (out1_A_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t)) z).trans ?_
  rw [Geom.iblk1_1 V c t, Geom.iblk1_3 V c t]
  exact cellA1 (grid1.coords t) (V c main_v1) (V c main_v1) (V c main_v14) ⟨t.val, tl⟩ (coords1 t).1 (coords1 t).2 z

theorem pt1_B_6 (c : Dev nD) (t : Fin cfg1.N) (h0 : ¬t.val % 16 = 0) (tl : t.val < 16) (z : S1x1.Idx) :
    (outsAt1 V c t.val t.isLt).2.1 z
      = (outsAt1 V c (t.val - 1) (Nat.lt_of_le_of_lt (Nat.sub_le t.val 1) t.isLt)).2.1 z + Cert.Spec.tileK (rows2048 (V c main_v1)) (rows2048 (V c main_v1)) (V c main_v14 (ix2 (0 : Fin 1) (0 : Fin 1))) ⟨t.val, tl⟩ := by
  refine (congrArg (fun o => o.2.1 z) (outsAt1_B V c t h0)).trans ?_
  refine (congrFun (out1_B_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t)
    (outsAt1 V c (t.val - 1) (Nat.lt_of_le_of_lt (Nat.sub_le t.val 1) t.isLt)).1 (outsAt1 V c (t.val - 1) (Nat.lt_of_le_of_lt (Nat.sub_le t.val 1) t.isLt)).2.1 (outsAt1 V c (t.val - 1) (Nat.lt_of_le_of_lt (Nat.sub_le t.val 1) t.isLt)).2.2.1 (outsAt1 V c (t.val - 1) (Nat.lt_of_le_of_lt (Nat.sub_le t.val 1) t.isLt)).2.2.2.1 (outsAt1 V c (t.val - 1) (Nat.lt_of_le_of_lt (Nat.sub_le t.val 1) t.isLt)).2.2.2.2) z).trans ?_
  rw [Geom.iblk1_1 V c t, Geom.iblk1_3 V c t]
  exact cellB1 (grid1.coords t) (V c main_v1) (V c main_v1) (V c main_v14) ⟨t.val, tl⟩ (coords1 t).1 (coords1 t).2 (outsAt1 V c (t.val - 1) (Nat.lt_of_le_of_lt (Nat.sub_le t.val 1) t.isLt)).2.1 z

theorem pt1_A_7 (c : Dev nD) (t : Fin cfg1.N) (h0 : t.val % 16 = 0) (tl : t.val < 16) (z : S1x1.Idx) :
    (outsAt1 V c t.val t.isLt).2.2.1 z = Cert.Spec.tileK (rows2048 (V c main_v0)) (rows2048 (V c main_v0)) (V c main_v22 (ix2 (0 : Fin 1) (0 : Fin 1))) ⟨t.val, tl⟩ := by
  refine (congrArg (fun o => o.2.2.1 z) (outsAt1_A V c t h0)).trans ?_
  refine (congrFun (out1_A_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t)) z).trans ?_
  rw [Geom.iblk1_0 V c t, Geom.iblk1_4 V c t]
  exact cellA1 (grid1.coords t) (V c main_v0) (V c main_v0) (V c main_v22) ⟨t.val, tl⟩ (coords1 t).1 (coords1 t).2 z

theorem pt1_B_7 (c : Dev nD) (t : Fin cfg1.N) (h0 : ¬t.val % 16 = 0) (tl : t.val < 16) (z : S1x1.Idx) :
    (outsAt1 V c t.val t.isLt).2.2.1 z
      = (outsAt1 V c (t.val - 1) (Nat.lt_of_le_of_lt (Nat.sub_le t.val 1) t.isLt)).2.2.1 z + Cert.Spec.tileK (rows2048 (V c main_v0)) (rows2048 (V c main_v0)) (V c main_v22 (ix2 (0 : Fin 1) (0 : Fin 1))) ⟨t.val, tl⟩ := by
  refine (congrArg (fun o => o.2.2.1 z) (outsAt1_B V c t h0)).trans ?_
  refine (congrFun (out1_B_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t)
    (outsAt1 V c (t.val - 1) (Nat.lt_of_le_of_lt (Nat.sub_le t.val 1) t.isLt)).1 (outsAt1 V c (t.val - 1) (Nat.lt_of_le_of_lt (Nat.sub_le t.val 1) t.isLt)).2.1 (outsAt1 V c (t.val - 1) (Nat.lt_of_le_of_lt (Nat.sub_le t.val 1) t.isLt)).2.2.1 (outsAt1 V c (t.val - 1) (Nat.lt_of_le_of_lt (Nat.sub_le t.val 1) t.isLt)).2.2.2.1 (outsAt1 V c (t.val - 1) (Nat.lt_of_le_of_lt (Nat.sub_le t.val 1) t.isLt)).2.2.2.2) z).trans ?_
  rw [Geom.iblk1_0 V c t, Geom.iblk1_4 V c t]
  exact cellB1 (grid1.coords t) (V c main_v0) (V c main_v0) (V c main_v22) ⟨t.val, tl⟩ (coords1 t).1 (coords1 t).2 (outsAt1 V c (t.val - 1) (Nat.lt_of_le_of_lt (Nat.sub_le t.val 1) t.isLt)).2.2.1 z

theorem pt1_A_8 (c : Dev nD) (t : Fin cfg1.N) (h0 : t.val % 16 = 0) (tl : t.val < 16) (z : S1x1.Idx) :
    (outsAt1 V c t.val t.isLt).2.2.2.1 z = Cert.Spec.tileK (rows2048 (V c main_v0)) (rows2048 (V c main_v1)) (V c main_v22 (ix2 (0 : Fin 1) (0 : Fin 1))) ⟨t.val, tl⟩ := by
  refine (congrArg (fun o => o.2.2.2.1 z) (outsAt1_A V c t h0)).trans ?_
  refine (congrFun (out1_A_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t)) z).trans ?_
  rw [Geom.iblk1_0 V c t, Geom.iblk1_1 V c t, Geom.iblk1_4 V c t]
  exact cellA1 (grid1.coords t) (V c main_v0) (V c main_v1) (V c main_v22) ⟨t.val, tl⟩ (coords1 t).1 (coords1 t).2 z

theorem pt1_B_8 (c : Dev nD) (t : Fin cfg1.N) (h0 : ¬t.val % 16 = 0) (tl : t.val < 16) (z : S1x1.Idx) :
    (outsAt1 V c t.val t.isLt).2.2.2.1 z
      = (outsAt1 V c (t.val - 1) (Nat.lt_of_le_of_lt (Nat.sub_le t.val 1) t.isLt)).2.2.2.1 z + Cert.Spec.tileK (rows2048 (V c main_v0)) (rows2048 (V c main_v1)) (V c main_v22 (ix2 (0 : Fin 1) (0 : Fin 1))) ⟨t.val, tl⟩ := by
  refine (congrArg (fun o => o.2.2.2.1 z) (outsAt1_B V c t h0)).trans ?_
  refine (congrFun (out1_B_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t)
    (outsAt1 V c (t.val - 1) (Nat.lt_of_le_of_lt (Nat.sub_le t.val 1) t.isLt)).1 (outsAt1 V c (t.val - 1) (Nat.lt_of_le_of_lt (Nat.sub_le t.val 1) t.isLt)).2.1 (outsAt1 V c (t.val - 1) (Nat.lt_of_le_of_lt (Nat.sub_le t.val 1) t.isLt)).2.2.1 (outsAt1 V c (t.val - 1) (Nat.lt_of_le_of_lt (Nat.sub_le t.val 1) t.isLt)).2.2.2.1 (outsAt1 V c (t.val - 1) (Nat.lt_of_le_of_lt (Nat.sub_le t.val 1) t.isLt)).2.2.2.2) z).trans ?_
  rw [Geom.iblk1_0 V c t, Geom.iblk1_1 V c t, Geom.iblk1_4 V c t]
  exact cellB1 (grid1.coords t) (V c main_v0) (V c main_v1) (V c main_v22) ⟨t.val, tl⟩ (coords1 t).1 (coords1 t).2 (outsAt1 V c (t.val - 1) (Nat.lt_of_le_of_lt (Nat.sub_le t.val 1) t.isLt)).2.2.2.1 z

theorem pt1_A_9 (c : Dev nD) (t : Fin cfg1.N) (h0 : t.val % 16 = 0) (tl : t.val < 16) (z : S1x1.Idx) :
    (outsAt1 V c t.val t.isLt).2.2.2.2 z = Cert.Spec.tileK (rows2048 (V c main_v1)) (rows2048 (V c main_v1)) (V c main_v22 (ix2 (0 : Fin 1) (0 : Fin 1))) ⟨t.val, tl⟩ := by
  refine (congrArg (fun o => o.2.2.2.2 z) (outsAt1_A V c t h0)).trans ?_
  refine (congrFun (out1_A_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t)) z).trans ?_
  rw [Geom.iblk1_1 V c t, Geom.iblk1_4 V c t]
  exact cellA1 (grid1.coords t) (V c main_v1) (V c main_v1) (V c main_v22) ⟨t.val, tl⟩ (coords1 t).1 (coords1 t).2 z

theorem pt1_B_9 (c : Dev nD) (t : Fin cfg1.N) (h0 : ¬t.val % 16 = 0) (tl : t.val < 16) (z : S1x1.Idx) :
    (outsAt1 V c t.val t.isLt).2.2.2.2 z
      = (outsAt1 V c (t.val - 1) (Nat.lt_of_le_of_lt (Nat.sub_le t.val 1) t.isLt)).2.2.2.2 z + Cert.Spec.tileK (rows2048 (V c main_v1)) (rows2048 (V c main_v1)) (V c main_v22 (ix2 (0 : Fin 1) (0 : Fin 1))) ⟨t.val, tl⟩ := by
  refine (congrArg (fun o => o.2.2.2.2 z) (outsAt1_B V c t h0)).trans ?_
  refine (congrFun (out1_B_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t)
    (outsAt1 V c (t.val - 1) (Nat.lt_of_le_of_lt (Nat.sub_le t.val 1) t.isLt)).1 (outsAt1 V c (t.val - 1) (Nat.lt_of_le_of_lt (Nat.sub_le t.val 1) t.isLt)).2.1 (outsAt1 V c (t.val - 1) (Nat.lt_of_le_of_lt (Nat.sub_le t.val 1) t.isLt)).2.2.1 (outsAt1 V c (t.val - 1) (Nat.lt_of_le_of_lt (Nat.sub_le t.val 1) t.isLt)).2.2.2.1 (outsAt1 V c (t.val - 1) (Nat.lt_of_le_of_lt (Nat.sub_le t.val 1) t.isLt)).2.2.2.2) z).trans ?_
  rw [Geom.iblk1_1 V c t, Geom.iblk1_4 V c t]
  exact cellB1 (grid1.coords t) (V c main_v1) (V c main_v1) (V c main_v22) ⟨t.val, tl⟩ (coords1 t).1 (coords1 t).2 (outsAt1 V c (t.val - 1) (Nat.lt_of_le_of_lt (Nat.sub_le t.val 1) t.isLt)).2.2.2.2 z

/-! ## The induction over the points -/

/-- After point `n` of the first pass each accumulator holds the running sum of its tiles `0 … n`. -/
theorem outs0_run (c : Dev nD) : ∀ (n : ℕ) (h : n < cfg0.N) (z : S1x1.Idx),
    (outsAt0 V c n h).1 z = run (Cert.Spec.tileSum (rows2048 (V c main_v0)) (rows2048 (V c main_v0))) n
      ∧ (outsAt0 V c n h).2.1 z = run (Cert.Spec.tileSum (rows2048 (V c main_v1)) (rows2048 (V c main_v1))) n
      ∧ (outsAt0 V c n h).2.2 z = run (Cert.Spec.tileSum (rows2048 (V c main_v0)) (rows2048 (V c main_v1))) n := by
  intro n
  induction n with
  | zero =>
    intro h z
    have tl : (0 : ℕ) < 16 := by omega
    refine ⟨?_, ?_, ?_⟩
    · rw [run_zero]; exact pt0_A_2 V c ⟨0, h⟩ rfl tl z
    · rw [run_zero]; exact pt0_A_3 V c ⟨0, h⟩ rfl tl z
    · rw [run_zero]; exact pt0_A_4 V c ⟨0, h⟩ rfl tl z
  | succ n ih =>
    intro h z
    have tl : n + 1 < 16 := lt_of_lt_of_eq h N_0
    have hne : ¬(n + 1) % 16 = 0 := by omega
    have ihn := ih (Nat.lt_of_succ_lt h) z
    refine ⟨?_, ?_, ?_⟩
    · rw [run_succ _ n tl, ← ihn.1]; exact pt0_B_2 V c ⟨n + 1, h⟩ hne tl z
    · rw [run_succ _ n tl, ← ihn.2.1]; exact pt0_B_3 V c ⟨n + 1, h⟩ hne tl z
    · rw [run_succ _ n tl, ← ihn.2.2]; exact pt0_B_4 V c ⟨n + 1, h⟩ hne tl z

/-- After point `n` of the second pass each accumulator holds the running sum of its tiles `0 … n`. -/
theorem outs1_run (c : Dev nD) : ∀ (n : ℕ) (h : n < cfg1.N) (z : S1x1.Idx),
    (outsAt1 V c n h).1 z = run (Cert.Spec.tileK (rows2048 (V c main_v0)) (rows2048 (V c main_v0)) (V c main_v8 (ix2 (0 : Fin 1) (0 : Fin 1)))) n
      ∧ (outsAt1 V c n h).2.1 z = run (Cert.Spec.tileK (rows2048 (V c main_v1)) (rows2048 (V c main_v1)) (V c main_v14 (ix2 (0 : Fin 1) (0 : Fin 1)))) n
      ∧ (outsAt1 V c n h).2.2.1 z = run (Cert.Spec.tileK (rows2048 (V c main_v0)) (rows2048 (V c main_v0)) (V c main_v22 (ix2 (0 : Fin 1) (0 : Fin 1)))) n
      ∧ (outsAt1 V c n h).2.2.2.1 z = run (Cert.Spec.tileK (rows2048 (V c main_v0)) (rows2048 (V c main_v1)) (V c main_v22 (ix2 (0 : Fin 1) (0 : Fin 1)))) n
      ∧ (outsAt1 V c n h).2.2.2.2 z = run (Cert.Spec.tileK (rows2048 (V c main_v1)) (rows2048 (V c main_v1)) (V c main_v22 (ix2 (0 : Fin 1) (0 : Fin 1)))) n := by
  intro n
  induction n with
  | zero =>
    intro h z
    have tl : (0 : ℕ) < 16 := by omega
    refine ⟨?_, ?_, ?_, ?_, ?_⟩
    · rw [run_zero]; exact pt1_A_5 V c ⟨0, h⟩ rfl tl z
    · rw [run_zero]; exact pt1_A_6 V c ⟨0, h⟩ rfl tl z
    · rw [run_zero]; exact pt1_A_7 V c ⟨0, h⟩ rfl tl z
    · rw [run_zero]; exact pt1_A_8 V c ⟨0, h⟩ rfl tl z
    · rw [run_zero]; exact pt1_A_9 V c ⟨0, h⟩ rfl tl z
  | succ n ih =>
    intro h z
    have tl : n + 1 < 16 := lt_of_lt_of_eq h N_1
    have hne : ¬(n + 1) % 16 = 0 := by omega
    have ihn := ih (Nat.lt_of_succ_lt h) z
    refine ⟨?_, ?_, ?_, ?_, ?_⟩
    · rw [run_succ _ n tl, ← ihn.1]; exact pt1_B_5 V c ⟨n + 1, h⟩ hne tl z
    · rw [run_succ _ n tl, ← ihn.2.1]; exact pt1_B_6 V c ⟨n + 1, h⟩ hne tl z
    · rw [run_succ _ n tl, ← ihn.2.2.1]; exact pt1_B_7 V c ⟨n + 1, h⟩ hne tl z
    · rw [run_succ _ n tl, ← ihn.2.2.2.1]; exact pt1_B_8 V c ⟨n + 1, h⟩ hne tl z
    · rw [run_succ _ n tl, ← ihn.2.2.2.2]; exact pt1_B_9 V c ⟨n + 1, h⟩ hne tl z

/-! ## After the last point -/

theorem acc0_2 (c : Dev nD) (z : S1x1.Idx) :
    (outsAt0 V c 15 Geom.lastPt0).1 z = Cert.Spec.kerSum (rows2048 (V c main_v0)) (rows2048 (V c main_v0)) := by
  rw [(outs0_run V c 15 Geom.lastPt0 z).1, run_last]
  rfl

theorem acc0_3 (c : Dev nD) (z : S1x1.Idx) :
    (outsAt0 V c 15 Geom.lastPt0).2.1 z = Cert.Spec.kerSum (rows2048 (V c main_v1)) (rows2048 (V c main_v1)) := by
  rw [(outs0_run V c 15 Geom.lastPt0 z).2.1, run_last]
  rfl

theorem acc0_4 (c : Dev nD) (z : S1x1.Idx) :
    (outsAt0 V c 15 Geom.lastPt0).2.2 z = Cert.Spec.kerSum (rows2048 (V c main_v0)) (rows2048 (V c main_v1)) := by
  rw [(outs0_run V c 15 Geom.lastPt0 z).2.2, run_last]
  rfl

theorem acc1_5 (c : Dev nD) (z : S1x1.Idx) :
    (outsAt1 V c 15 Geom.lastPt1).1 z = Cert.Spec.kerK (rows2048 (V c main_v0)) (rows2048 (V c main_v0)) (V c main_v8 (ix2 (0 : Fin 1) (0 : Fin 1))) := by
  rw [(outs1_run V c 15 Geom.lastPt1 z).1, run_last]
  rfl

theorem acc1_6 (c : Dev nD) (z : S1x1.Idx) :
    (outsAt1 V c 15 Geom.lastPt1).2.1 z = Cert.Spec.kerK (rows2048 (V c main_v1)) (rows2048 (V c main_v1)) (V c main_v14 (ix2 (0 : Fin 1) (0 : Fin 1))) := by
  rw [(outs1_run V c 15 Geom.lastPt1 z).2.1, run_last]
  rfl

theorem acc1_7 (c : Dev nD) (z : S1x1.Idx) :
    (outsAt1 V c 15 Geom.lastPt1).2.2.1 z = Cert.Spec.kerK (rows2048 (V c main_v0)) (rows2048 (V c main_v0)) (V c main_v22 (ix2 (0 : Fin 1) (0 : Fin 1))) := by
  rw [(outs1_run V c 15 Geom.lastPt1 z).2.2.1, run_last]
  rfl

theorem acc1_8 (c : Dev nD) (z : S1x1.Idx) :
    (outsAt1 V c 15 Geom.lastPt1).2.2.2.1 z = Cert.Spec.kerK (rows2048 (V c main_v0)) (rows2048 (V c main_v1)) (V c main_v22 (ix2 (0 : Fin 1) (0 : Fin 1))) := by
  rw [(outs1_run V c 15 Geom.lastPt1 z).2.2.2.1, run_last]
  rfl

theorem acc1_9 (c : Dev nD) (z : S1x1.Idx) :
    (outsAt1 V c 15 Geom.lastPt1).2.2.2.2 z = Cert.Spec.kerK (rows2048 (V c main_v1)) (rows2048 (V c main_v1)) (V c main_v22 (ix2 (0 : Fin 1) (0 : Fin 1))) := by
  rw [(outs1_run V c 15 Geom.lastPt1 z).2.2.2.2, run_last]
  rfl

end Points

end Cert.KernelIdeal.Accum

end
-- ==== Proof.HostGlueTerms.lean ====
/-
  The kernel program's host operations between its kernel regions, folded: what each list of scalar operations
  leaves in the buffers the regions read, as one composed term of the buffers the list reads, for any float instance.
-/
import proofs.«165374_j9122510537222_1_alg».proof.Proof.Gen.KernelIdeal.Launch
import Idealize.ShloMosaic.Lib.StableHlo.Run

noncomputable section

namespace Cert.KernelIdeal.HostGlue

open Cert.KernelIdeal Cert.KernelIdeal.Gen Idealize.ShloMosaic Idealize.ShloMosaic.TcCoe Idealize.SL.Sem Idealize.ShloMosaic.StableHlo

variable {F : FTy → Type} [FloatOps F]

variable (W : Valuation τ sig (Elt F))

/-- The first list: the two slices of the argument. -/
theorem after0_v0 : after hostOps0 W (Proc.devRef .tc main_v0)
    = extractStridedSlice S2048x512 ![0, 0] (W (Proc.devRef .tc main_arg0)) slices_S4096x512_S2048x512_0_0 := by
  simp only [hostOps0]
  after_results_simp

theorem after0_v1 : after hostOps0 W (Proc.devRef .tc main_v1)
    = extractStridedSlice S2048x512 ![2048, 0] (W (Proc.devRef .tc main_arg0)) slices_S4096x512_S2048x512_2048_0 := by
  simp only [hostOps0]
  after_results_simp

/-- The second list writes neither slice. -/
theorem after1_v0 : after hostOps1 W (Proc.devRef .tc main_v0) = (W (Proc.devRef .tc main_v0)) := by
  simp only [hostOps1]
  after_results_simp

theorem after1_v1 : after hostOps1 W (Proc.devRef .tc main_v1) = (W (Proc.devRef .tc main_v1)) := by
  simp only [hostOps1]
  after_results_simp

/-- The second list's three bandwidths. -/
theorem after1_v8 : after hostOps1 W (Proc.devRef .tc main_v8)
    = Host.divf (Host.divf (mulf (broadcastInDim S1x1 ![] bcast_S_S1x1 (constant S_ .f32 0x40800000#32)) (W (Proc.devRef .tc main_v2_0))) (broadcastInDim S1x1 ![] bcast_S_S1x1 (constant S_ .f32 0x4B7FF000#32))) (broadcastInDim S1x1 ![] bcast_S_S1x1 (constant S_ .f32 0x40800000#32)) := by
  simp only [hostOps1]
  after_results_simp

theorem after1_v14 : after hostOps1 W (Proc.devRef .tc main_v14)
    = Host.divf (Host.divf (mulf (broadcastInDim S1x1 ![] bcast_S_S1x1 (constant S_ .f32 0x40800000#32)) (W (Proc.devRef .tc main_v2_1))) (broadcastInDim S1x1 ![] bcast_S_S1x1 (constant S_ .f32 0x4B7FF000#32))) (broadcastInDim S1x1 ![] bcast_S_S1x1 (constant S_ .f32 0x40800000#32)) := by
  simp only [hostOps1]
  after_results_simp

theorem after1_v22 : after hostOps1 W (Proc.devRef .tc main_v22)
    = Host.divf (Host.divf (addf (addf (W (Proc.devRef .tc main_v2_0)) (mulf (broadcastInDim S1x1 ![] bcast_S_S1x1 (constant S_ .f32 0x40000000#32)) (W (Proc.devRef .tc main_v2_2)))) (W (Proc.devRef .tc main_v2_1))) (broadcastInDim S1x1 ![] bcast_S_S1x1 (constant S_ .f32 0x4B7FF000#32))) (broadcastInDim S1x1 ![] bcast_S_S1x1 (constant S_ .f32 0x40800000#32)) := by
  simp only [hostOps1]
  after_results_simp

/-- The third list's result, before its last reshape to rank 0. -/
theorem after2_v44 : after hostOps2 W (Proc.devRef .tc main_v44)
    = shapeCast S_ (subf (addf (Host.divf (W (Proc.devRef .tc main_v23_0)) (broadcastInDim S1x1 ![] bcast_S_S1x1 (constant S_ .f32 0x4A800000#32))) (Host.divf (W (Proc.devRef .tc main_v23_1)) (broadcastInDim S1x1 ![] bcast_S_S1x1 (constant S_ .f32 0x4A800000#32)))) (mulf (broadcastInDim S1x1 ![] bcast_S_S1x1 (constant S_ .f32 0x40000000#32)) (mulf (broadcastInDim S1x1 ![] bcast_S_S1x1 (constant S_ .f32 0x3E800000#32)) (addf (addf (Host.divf (W (Proc.devRef .tc main_v23_2)) (broadcastInDim S1x1 ![] bcast_S_S1x1 (constant S_ .f32 0x4A800000#32))) (Host.divf (mulf (broadcastInDim S1x1 ![] bcast_S_S1x1 (constant S_ .f32 0x40000000#32)) (W (Proc.devRef .tc main_v23_3))) (broadcastInDim S1x1 ![] bcast_S_S1x1 (constant S_ .f32 0x4A800000#32)))) (Host.divf (W (Proc.devRef .tc main_v23_4)) (broadcastInDim S1x1 ![] bcast_S_S1x1 (constant S_ .f32 0x4A800000#32)))))) : FVec F S1x1 .f32) shapeCasts_S1x1_S_ := by
  simp only [hostOps2]
  after_results_simp
  rfl

end Cert.KernelIdeal.HostGlue

end
-- ==== Proof.HostGlue.lean ====
/-
  The kernel program's host operations read at the ideal values: the two slices are the argument's source and target
  rows, the second list computes the three bandwidths `bwOf` from the three table sums, and the third list combines the
  five table averages into the result.
-/
import proofs.«165374_j9122510537222_1_alg».proof.Proof.HostGlueTerms
import proofs.«165374_j9122510537222_1_alg».proof.Proof.Spec
import proofs.«165374_j9122510537222_1_alg».proof.Proof.Consts
import Idealize.ShloMosaic.Lib.IdealHost
import Idealize.ShloMosaic.Lib.ValueLayout

noncomputable section

namespace Cert.KernelIdeal.HostGlue

open Cert.KernelIdeal Cert.KernelIdeal.Gen Idealize.ShloMosaic Idealize.ShloMosaic.TcCoe Idealize.SL.Sem Idealize.ShloMosaic.StableHlo
open Idealize.ShloMosaic.ValueIdx

/-! ## The scalar operations at the one index of a [1,1] array -/

/-- A rank-0 constant broadcast to [1,1] reads the constant. -/
theorem bc_apply (b : BitVec 32) (p : S1x1.Idx) :
    broadcastInDim S1x1 ![] bcast_S_S1x1 (constant (F := Ideal) S_ .f32 b) p = Ideal.ofBits .f32 b := by
  rw [broadcastInDim_scalar_apply]
  rfl

/-- A product with a broadcast constant. -/
theorem scale_apply (b : BitVec 32) (x : S1x1.Idx → EReal) (p : S1x1.Idx) :
    mulf (F := Ideal) (φ := .f32) (broadcastInDim S1x1 ![] bcast_S_S1x1 (constant S_ .f32 b)) x p = Ideal.ofBits .f32 b * x p := by
  rw [mulf_apply, bc_apply]

/-- Division by the pair count and by four. -/
theorem bwTerm_apply (s : S1x1.Idx → EReal) (p : S1x1.Idx) :
    Host.divf (F := Ideal) (φ := .f32) (Host.divf s (broadcastInDim S1x1 ![] bcast_S_S1x1 (constant S_ .f32 0x4B7FF000#32))) (broadcastInDim S1x1 ![] bcast_S_S1x1 (constant S_ .f32 0x40800000#32)) p = Cert.Spec.bwOf (s p) := by
  rw [hostDivf_apply, hostDivf_apply, bc_apply, bc_apply, Cert.Consts.ofBits_pairs, Cert.Consts.ofBits_four]
  rfl

/-- Division by 2048². -/
theorem avgTerm_apply (s : S1x1.Idx → EReal) (p : S1x1.Idx) :
    Host.divf (F := Ideal) (φ := .f32) s (broadcastInDim S1x1 ![] bcast_S_S1x1 (constant S_ .f32 0x4A800000#32)) p = Cert.Spec.avg (s p) := by
  rw [hostDivf_apply, bc_apply, Cert.Consts.ofBits_sq2048]
  rfl

/-- A [1,1] array reshaped to rank 0 reads its one entry. -/
theorem reshape11_apply (x : S1x1.Idx → EReal) :
    shapeCast S_ x shapeCasts_S1x1_S_ ix0 = x (ix2 (0 : Fin 1) (0 : Fin 1)) :=
  shapeCast_apply x shapeCasts_S1x1_S_ ix0 (ix2 (0 : Fin 1) (0 : Fin 1)) rfl

variable (W : Valuation τ sig (Elt Ideal))

/-! ## (a) the slices -/

theorem src_rows :
    (fun p k => after hostOps0 W (Proc.devRef .tc main_v0) (ix2 p k)) = Cert.Spec.srcRows (W (Proc.devRef .tc main_arg0)) := by
  rw [after0_v0]
  funext p k
  exact slice2_axis0_apply 0 (W (Proc.devRef .tc main_arg0)) _ p k ⟨p.val, by have := p.isLt; omega⟩ (Nat.zero_add _).symm

theorem tgt_rows :
    (fun p k => after hostOps0 W (Proc.devRef .tc main_v1) (ix2 p k)) = Cert.Spec.tgtRows (W (Proc.devRef .tc main_arg0)) := by
  rw [after0_v1]
  funext p k
  exact slice2_axis0_apply 2048 (W (Proc.devRef .tc main_arg0)) _ p k ⟨2048 + p.val, by have := p.isLt; omega⟩ rfl

/-! ## (b) the second list keeps the slices -/

theorem keep_v0 : after hostOps1 W (Proc.devRef .tc main_v0) = W (Proc.devRef .tc main_v0) := after1_v0 W
theorem keep_v1 : after hostOps1 W (Proc.devRef .tc main_v1) = W (Proc.devRef .tc main_v1) := after1_v1 W

/-! ## (c) the three bandwidths -/

theorem bw_v8 :
    after hostOps1 W (Proc.devRef .tc main_v8) (ix2 (0 : Fin 1) (0 : Fin 1)) = Cert.Spec.bwOf (((4 : ℝ) : EReal) * W (Proc.devRef .tc main_v2_0) (ix2 (0 : Fin 1) (0 : Fin 1))) := by
  rw [after1_v8, bwTerm_apply, scale_apply, Cert.Consts.ofBits_four]

theorem bw_v14 :
    after hostOps1 W (Proc.devRef .tc main_v14) (ix2 (0 : Fin 1) (0 : Fin 1)) = Cert.Spec.bwOf (((4 : ℝ) : EReal) * W (Proc.devRef .tc main_v2_1) (ix2 (0 : Fin 1) (0 : Fin 1))) := by
  rw [after1_v14, bwTerm_apply, scale_apply, Cert.Consts.ofBits_four]

theorem bw_v22 :
    after hostOps1 W (Proc.devRef .tc main_v22) (ix2 (0 : Fin 1) (0 : Fin 1))
      = Cert.Spec.bwOf (HAdd.hAdd (α := EReal) (β := EReal) (γ := EReal)
          (HAdd.hAdd (α := EReal) (β := EReal) (γ := EReal) (W (Proc.devRef .tc main_v2_0) (ix2 (0 : Fin 1) (0 : Fin 1)))
            (((2 : ℝ) : EReal) * W (Proc.devRef .tc main_v2_2) (ix2 (0 : Fin 1) (0 : Fin 1))))
          (W (Proc.devRef .tc main_v2_1) (ix2 (0 : Fin 1) (0 : Fin 1)))) := by
  rw [after1_v22, bwTerm_apply, addf_apply, addf_apply, scale_apply, Cert.Consts.ofBits_two]

/-! ## (d) the result -/

theorem result_v44 :
    after hostOps2 W (Proc.devRef .tc main_v44) ix0
      = (Cert.Spec.avg (W (Proc.devRef .tc main_v23_0) (ix2 (0 : Fin 1) (0 : Fin 1))) + Cert.Spec.avg (W (Proc.devRef .tc main_v23_1) (ix2 (0 : Fin 1) (0 : Fin 1))))
        - ((2 : ℝ) : EReal) * (((1 / 4 : ℝ) : EReal) *
            ((Cert.Spec.avg (W (Proc.devRef .tc main_v23_2) (ix2 (0 : Fin 1) (0 : Fin 1))) + Cert.Spec.avg (((2 : ℝ) : EReal) * W (Proc.devRef .tc main_v23_3) (ix2 (0 : Fin 1) (0 : Fin 1))))
              + Cert.Spec.avg (W (Proc.devRef .tc main_v23_4) (ix2 (0 : Fin 1) (0 : Fin 1))))) := by
  rw [after2_v44, reshape11_apply, subf_apply, addf_apply, scale_apply, scale_apply, addf_apply, addf_apply,
    avgTerm_apply, avgTerm_apply, avgTerm_apply, avgTerm_apply, avgTerm_apply, scale_apply,
    Cert.Consts.ofBits_two, Cert.Consts.ofBits_quarter]

end Cert.KernelIdeal.HostGlue

end
-- ==== Proof.KerValue.lean ====
/-
  The kernel program's result, as the specification's formula.

  Follow the contents of the buffers through the program's five segments.  The two slices give the source points `S`
  and the target points `T`.  The first pass leaves the three table sums `kerSum S S`, `kerSum T T`, `kerSum S T`; the
  scalar operations after it turn them into the bandwidths `bwXX S`, `bwYY T`, `bwXY S T`; the second pass, which reads
  the same points and those bandwidths, leaves the five kernel sums; the last scalar operations combine their averages.
-/
import proofs.«165374_j9122510537222_1_alg».proof.Proof.Gen.KernelIdeal.Frame
import proofs.«165374_j9122510537222_1_alg».proof.Proof.RunValued
import proofs.«165374_j9122510537222_1_alg».proof.Proof.Geom
import proofs.«165374_j9122510537222_1_alg».proof.Proof.Accum
import proofs.«165374_j9122510537222_1_alg».proof.Proof.HostGlue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.Tile

variable (m : (ℓ : Loc nD τ sig) → Buf (Elt Ideal) ℓ) (ρ : Dev nD → PrngReg)

/-- The one index of a 1 × 1 array. -/
abbrev z0 : S1x1.Idx := ix2 (0 : Fin 1) (0 : Fin 1)

/-- The source points. -/
abbrev src (c : Dev nD) : Cert.Spec.Rows 2048 := Cert.Spec.srcRows (m ((c.tc : Thread nD τ).loc main_arg0))
/-- The target points. -/
abbrev tgt (c : Dev nD) : Cert.Spec.Rows 2048 := Cert.Spec.tgtRows (m ((c.tc : Thread nD τ).loc main_arg0))

/-! ## Entering the first pass -/

theorem v1_src (c : Dev nD) : rows2048 (V1 m ρ c main_v0) = src m c := HostGlue.src_rows (W0 m ρ c)
theorem v1_tgt (c : Dev nD) : rows2048 (V1 m ρ c main_v1) = tgt m c := HostGlue.tgt_rows (W0 m ρ c)

/-! ## Leaving the first pass -/

theorem sum_ss (c : Dev nD) : W2 m ρ c (Proc.devRef .tc main_v2_0) z0 = Cert.Spec.kerSum (src m c) (src m c) := by
  rw [show W2 m ρ c (Proc.devRef .tc main_v2_0) = _ from W2_arr m ρ c 2, Geom.arr0_2, Accum.acc0_2, v1_src]
theorem sum_tt (c : Dev nD) : W2 m ρ c (Proc.devRef .tc main_v2_1) z0 = Cert.Spec.kerSum (tgt m c) (tgt m c) := by
  rw [show W2 m ρ c (Proc.devRef .tc main_v2_1) = _ from W2_arr m ρ c 3, Geom.arr0_3, Accum.acc0_3, v1_tgt]
theorem sum_st (c : Dev nD) : W2 m ρ c (Proc.devRef .tc main_v2_2) z0 = Cert.Spec.kerSum (src m c) (tgt m c) := by
  rw [show W2 m ρ c (Proc.devRef .tc main_v2_2) = _ from W2_arr m ρ c 4, Geom.arr0_4, Accum.acc0_4, v1_src, v1_tgt]

theorem w2_v0 (c : Dev nD) : W2 m ρ c (Proc.devRef .tc main_v0) = V1 m ρ c main_v0 :=
  (W2_arr m ρ c 0).trans ((dat0 (V1 m ρ) c).arrAt_in 0 rfl _)
theorem w2_v1 (c : Dev nD) : W2 m ρ c (Proc.devRef .tc main_v1) = V1 m ρ c main_v1 :=
  (W2_arr m ρ c 1).trans ((dat0 (V1 m ρ) c).arrAt_in 1 rfl _)

/-! ## Entering the second pass -/

theorem v3_src (c : Dev nD) : rows2048 (V3 m ρ c main_v0) = src m c := by
  show rows2048 (StableHlo.after hostOps1 (W2 m ρ c) (Proc.devRef .tc main_v0)) = _
  rw [HostGlue.keep_v0, w2_v0]; exact v1_src m ρ c
theorem v3_tgt (c : Dev nD) : rows2048 (V3 m ρ c main_v1) = tgt m c := by
  show rows2048 (StableHlo.after hostOps1 (W2 m ρ c) (Proc.devRef .tc main_v1)) = _
  rw [HostGlue.keep_v1, w2_v1]; exact v1_tgt m ρ c

theorem bw_xx (c : Dev nD) : V3 m ρ c main_v8 z0 = Cert.Spec.bwXX (src m c) := by
  show StableHlo.after hostOps1 (W2 m ρ c) (Proc.devRef .tc main_v8) z0 = _
  rw [HostGlue.bw_v8, sum_ss]; rfl
theorem bw_yy (c : Dev nD) : V3 m ρ c main_v14 z0 = Cert.Spec.bwYY (tgt m c) := by
  show StableHlo.after hostOps1 (W2 m ρ c) (Proc.devRef .tc main_v14) z0 = _
  rw [HostGlue.bw_v14, sum_tt]; rfl
theorem bw_xy (c : Dev nD) : V3 m ρ c main_v22 z0 = Cert.Spec.bwXY (src m c) (tgt m c) := by
  show StableHlo.after hostOps1 (W2 m ρ c) (Proc.devRef .tc main_v22) z0 = _
  rw [HostGlue.bw_v22, sum_ss, sum_st, sum_tt]; rfl

/-! ## Leaving the second pass -/

theorem k0 (c : Dev nD) : W4 m ρ c (Proc.devRef .tc main_v23_0) z0 = Cert.Spec.kerK (src m c) (src m c) (Cert.Spec.bwXX (src m c)) := by
  rw [show W4 m ρ c (Proc.devRef .tc main_v23_0) = _ from W4_arr m ρ c 5, Geom.arr1_5, Accum.acc1_5, v3_src, bw_xx]
theorem k1 (c : Dev nD) : W4 m ρ c (Proc.devRef .tc main_v23_1) z0 = Cert.Spec.kerK (tgt m c) (tgt m c) (Cert.Spec.bwYY (tgt m c)) := by
  rw [show W4 m ρ c (Proc.devRef .tc main_v23_1) = _ from W4_arr m ρ c 6, Geom.arr1_6, Accum.acc1_6, v3_tgt, bw_yy]
theorem k2 (c : Dev nD) : W4 m ρ c (Proc.devRef .tc main_v23_2) z0 = Cert.Spec.kerK (src m c) (src m c) (Cert.Spec.bwXY (src m c) (tgt m c)) := by
  rw [show W4 m ρ c (Proc.devRef .tc main_v23_2) = _ from W4_arr m ρ c 7, Geom.arr1_7, Accum.acc1_7, v3_src, bw_xy]
theorem k3 (c : Dev nD) : W4 m ρ c (Proc.devRef .tc main_v23_3) z0 = Cert.Spec.kerK (src m c) (tgt m c) (Cert.Spec.bwXY (src m c) (tgt m c)) := by
  rw [show W4 m ρ c (Proc.devRef .tc main_v23_3) = _ from W4_arr m ρ c 8, Geom.arr1_8, Accum.acc1_8, v3_src, v3_tgt, bw_xy]
theorem k4 (c : Dev nD) : W4 m ρ c (Proc.devRef .tc main_v23_4) z0 = Cert.Spec.kerK (tgt m c) (tgt m c) (Cert.Spec.bwXY (src m c) (tgt m c)) := by
  rw [show W4 m ρ c (Proc.devRef .tc main_v23_4) = _ from W4_arr m ρ c 9, Geom.arr1_9, Accum.acc1_9, v3_tgt, bw_xy]

/-! ## The result -/

theorem result (c : Dev nD) : W5 m ρ c (Proc.devRef .tc main_v44) = fun _ => Cert.Spec.kerResult (src m c) (tgt m c) := by
  funext j
  rw [eq_ix0 j]
  show StableHlo.after hostOps2 (W4 m ρ c) (Proc.devRef .tc main_v44) ix0 = _
  rw [HostGlue.result_v44, k0, k1, k2, k3, k4]; rfl

/-- Every weakly fair execution of the kernel program ends with the result at the kernel's formula of the argument's
    two halves, and the arguments as launched. -/
theorem run : θ_run defs (onTc (τ := τ) (main (F := Ideal))) ⟨m, fun _ => 0, ρ⟩ (fun r => ∀ c : Dev nD,
      r.2.mem ((c.tc : Thread nD τ).loc main_v44) = (fun _ => Cert.Spec.kerResult (src m c) (tgt m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result m ρ c), (h c).2⟩) (RunValued.run m ρ)

end Cert.KernelIdeal.KerValue

end
-- ==== Proof.lean ====
/-
  The kernel computes the multi-bandwidth Gaussian-kernel maximum-mean-discrepancy of the first 2048 rows of its
  argument (the source points `S`) against its last 2048 rows (the target points `T`) in two passes over a 4 × 4 grid of
  512 × 512 tiles: the first pass sums the three tables of squared distances S–S, T–T, S–T (the bandwidths are those
  sums scaled), the second sums the five-scale Gaussian kernel over the same tables at the three bandwidths, and a few
  scalar operations combine the five averages into `xx + yy - 2 · xy`.  The reference stacks the points into 4096 rows
  and works on the three 4096 × 4096 tables of (S,S), (T,T), (S,T).

  On the extended reals the two are one number.  A stacked table is four quadrants, each one of the kernel's tables
  (the T–S quadrant is the S–T table transposed, and a sum does not see a transposition); so a stacked table's sum
  is `x + x + x + x = 4 · x` or `a + b + b + c = (a + 2 · b) + c` of the kernel's sums — laws that hold for every extended
  real — which makes the bandwidths agree, and the stacked averages are the kernel's combinations of its averages
  (a nonnegative real factor distributes over any sum of extended reals).  No finiteness of the input is used.

  * `Spec`: both programs as formulas; `SpecLaw`: the two formulas are equal.
  * `RefValue`: the reference's run ends at the first formula.
  * `KerValue`: the kernel's run ends at the second — the tiles' arithmetic (`TileFns`, `TileRead`), what each grid
    point leaves in each accumulator (`Pieces`), the running sums over the 16 points (`Accum`), the windows'
    geometry (`Geom`, `RowsGeom`), the scalar operations between and after the passes (`HostGlue`).
  The three frames are the generated ones (the reference's is its generated run with the result dropped); the
  idealization rewrote nothing, so `preserves` is trivial.
-/
import proofs.«165374_j9122510537222_1_alg».proof.Defs
import proofs.«165374_j9122510537222_1_alg».proof.Proof.Gen.Kernel
import proofs.«165374_j9122510537222_1_alg».proof.Proof.Gen.Kernel.Frame
import proofs.«165374_j9122510537222_1_alg».proof.Proof.Gen.KernelIdeal
import proofs.«165374_j9122510537222_1_alg».proof.Proof.Gen.KernelIdeal.Frame
import proofs.«165374_j9122510537222_1_alg».proof.Proof.Gen.ReferenceIdeal
import proofs.«165374_j9122510537222_1_alg».proof.Proof.Gen.ReferenceIdeal.Run
import proofs.«165374_j9122510537222_1_alg».proof.Proof.Gen.Pre_finite_inputs
import proofs.«165374_j9122510537222_1_alg».proof.Proof.SpecLaw
import proofs.«165374_j9122510537222_1_alg».proof.Proof.RefValue
import proofs.«165374_j9122510537222_1_alg».proof.Proof.KerValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the kernel's formula of the argument's two halves. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run_spec m' ρ')
  rw [(hagree c).1]
  funext _
  exact Cert.Spec.refResult_eq_kerResult _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
